-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x16x512x512 : Shape := ⟨4, ![3, 16, 512, 512]⟩
abbrev S16x512x512 : Shape := ⟨3, ![16, 512, 512]⟩
abbrev S16x512 : Shape := ⟨2, ![16, 512]⟩
abbrev S6x512x512 : Shape := ⟨3, ![6, 512, 512]⟩
abbrev S6x512 : Shape := ⟨2, ![6, 512]⟩
abbrev S512x3072 : Shape := ⟨2, ![512, 3072]⟩
abbrev S512 : Shape := ⟨1, ![512]⟩
abbrev S_ : Shape := ⟨0, ![]⟩

class Facts : Prop where
  bcast_S_S3x16x512x512 : S_.BroadcastsInDim S3x16x512x512 (![] : Fin 0 → Fin S3x16x512x512.rank)
  reducesTo_S3x16x512x512_S_d0_1_2_3 : S3x16x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_
  bcast_S_S6x512x512 : S_.BroadcastsInDim S6x512x512 (![] : Fin 0 → Fin S6x512x512.rank)
  reducesTo_S6x512x512_S_d0_1_2 : S6x512x512.ReducesTo [0, 1, 2] S_
  bcast_S_S6x512 : S_.BroadcastsInDim S6x512 (![] : Fin 0 → Fin S6x512.rank)
  reducesTo_S6x512_S_d0_1 : S6x512.ReducesTo [0, 1] S_
  bcast_S_S512x3072 : S_.BroadcastsInDim S512x3072 (![] : Fin 0 → Fin S512x3072.rank)
  reducesTo_S512x3072_S_d0_1 : S512x3072.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg6 : FVec F S512x3072 .f32) (main_arg7 : FVec F S512 .f32) (main_v13 : IVec S_ 1) (main_v16 : IVec S6x512 1) : IVec S_ 1 :=
  let main_c_5 : IVec S_ 1 := constantI S_ 1 1#1
  let main_v17 : IVec S_ 1 := (fun x v => Host.reduce IntOp.andi x v reducesTo_S6x512_S_d0_1 h_S_) main_v16 main_c_5
  let main_v18 : IVec S_ 1 := andi main_v13 main_v17
  let main_v19 : FVec F S512x3072 .f32 := Host.absf main_arg6
  let main_cst_6 : FVec F S_ .f32 := constant S_ .f32 0x7F800000#32
  let main_v20 : FVec F S512x3072 .f32 := broadcastInDim S512x3072 ![] bcast_S_S512x3072 main_cst_6
  let main_v21 : IVec S512x3072 1 := cmpf .olt main_v19 main_v20
  let main_c_7 : IVec S_ 1 := constantI S_ 1 1#1
  let main_v22 : IVec S_ 1 := (fun x v => Host.reduce IntOp.andi x v reducesTo_S512x3072_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S3x16x512x512 .f32) (main_arg1 : FVec F S16x512x512 .f32) (main_arg2 : IVec S16x512 1) (main_arg3 : IVec S16x512 1) (main_arg4 : FVec F S6x512x512 .f32) (main_arg5 : FVec F S6x512 .f32) (main_arg6 : FVec F S512x3072 .f32) (main_arg7 : FVec F S512 .f32) : IVec S_ 1 :=
  let main_v0 : FVec F S3x16x512x512 .f32 := Host.absf main_arg0
  let main_cst : FVec F S_ .f32 := constant S_ .f32 0x7F800000#32
  let main_v1 : FVec F S3x16x512x512 .f32 := broadcastInDim S3x16x512x512 ![] bcast_S_S3x16x512x512 main_cst
  let main_v2 : IVec S3x16x512x512 1 := cmpf .olt main_v0 main_v1
  let main_c : IVec S_ 1 := constantI S_ 1 1#1
  let main_v3 : IVec S_ 1 := (fun x v => Host.reduce IntOp.andi x v reducesTo_S3x16x512x512_S_d0_1_2_3 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S6x512x512 .f32 := Host.absf main_arg4
  let main_cst_2 : FVec F S_ .f32 := constant S_ .f32 0x7F800000#32
  let main_v10 : FVec F S6x512x512 .f32 := broadcastInDim S6x512x512 ![] bcast_S_S6x512x512 main_cst_2
  let main_v11 : IVec S6x512x512 1 := cmpf .olt main_v9 main_v10
  let main_c_3 : IVec S_ 1 := constantI S_ 1 1#1
  let main_v12 : IVec S_ 1 := (fun x v => Host.reduce IntOp.andi x v reducesTo_S6x512x512_S_d0_1_2 h_S_) main_v11 main_c_3
  let main_v13 : IVec S_ 1 := andi main_v8 main_v12
  let main_v14 : FVec F S6x512 .f32 := Host.absf main_arg5
  let main_cst_4 : FVec F S_ .f32 := constant S_ .f32 0x7F800000#32
  let main_v15 : FVec F S6x512 .f32 := broadcastInDim S6x512 ![] bcast_S_S6x512 main_cst_4
  let main_v16 : IVec S6x512 1 := cmpf .olt main_v14 main_v15
  fn_part1 (F := F) main_arg6 main_arg7 main_v13 main_v16
-- ==== Kernel.lean ====
abbrev S3x16x512x512 : Shape := ⟨4, ![3, 16, 512, 512]⟩
abbrev S16x512x512 : Shape := ⟨3, ![16, 512, 512]⟩
abbrev S16x512 : Shape := ⟨2, ![16, 512]⟩
abbrev S6x512x512 : Shape := ⟨3, ![6, 512, 512]⟩
abbrev S6x512 : Shape := ⟨2, ![6, 512]⟩
abbrev S512x3072 : Shape := ⟨2, ![512, 3072]⟩
abbrev S512 : Shape := ⟨1, ![512]⟩
abbrev S3072x512 : Shape := ⟨2, ![3072, 512]⟩
abbrev S3x1x512x512 : Shape := ⟨4, ![3, 1, 512, 512]⟩
abbrev S1x512x512 : Shape := ⟨3, ![1, 512, 512]⟩
abbrev S512x512 : Shape := ⟨2, ![512, 512]⟩
abbrev S1x1x512x512 : Shape := ⟨4, ![1, 1, 512, 512]⟩
abbrev S512x1 : Shape := ⟨2, ![512, 1]⟩
abbrev S1x512 : Shape := ⟨2, ![1, 512]⟩

abbrev nBuf : Space → Nat
  | .hbm => 13
  | .vmem => 11
  | .smem => 0
  | _ => 0

abbrev bufTy : (tb : Table) → Fin (tcTables nBuf tb) → BufTy
  | .hbm, ⟨0, _⟩ => ⟨S3x16x512x512, .f32⟩
  | .hbm, ⟨1, _⟩ => ⟨S16x512x512, .f32⟩
  | .hbm, ⟨2, _⟩ => ⟨S16x512, .i1⟩
  | .hbm, ⟨3, _⟩ => ⟨S16x512, .i1⟩
  | .hbm, ⟨4, _⟩ => ⟨S6x512x512, .f32⟩
  | .hbm, ⟨5, _⟩ => ⟨S6x512, .f32⟩
  | .hbm, ⟨6, _⟩ => ⟨S512x3072, .f32⟩
  | .hbm, ⟨7, _⟩ => ⟨S512, .f32⟩
  | .hbm, ⟨8, _⟩ => ⟨S6x512x512, .f32⟩
  | .hbm, ⟨9, _⟩ => ⟨S6x512x512, .bf16⟩
  | .hbm, ⟨10, _⟩ => ⟨S3072x512, .f32⟩
  | .hbm, ⟨11, _⟩ => ⟨S3072x512, .bf16⟩
  | .hbm, ⟨12, _⟩ => ⟨S16x512x512, .f32⟩
  | .local _ .vmem, ⟨0, _⟩ => ⟨S3x1x512x512, .f32⟩
  | .local _ .vmem, ⟨1, _⟩ => ⟨S3x1x512x512, .f32⟩
  | .local _ .vmem, ⟨2, _⟩ => ⟨S1x512x512, .f32⟩
  | .local _ .vmem, ⟨3, _⟩ => ⟨S1x512x512, .f32⟩
  | .local _ .vmem, ⟨4, _⟩ => ⟨S6x512x512, .bf16⟩
  | .local _ .vmem, ⟨5, _⟩ => ⟨S6x512, .f32⟩
  | .local _ .vmem, ⟨6, _⟩ => ⟨S3072x512, .bf16⟩
  | .local _ .vmem, ⟨7, _⟩ => ⟨S512, .f32⟩
  | .local _ .vmem, ⟨8, _⟩ => ⟨S1x512x512, .f32⟩
  | .local _ .vmem, ⟨9, _⟩ => ⟨S1x512x512, .f32⟩
  | .local _ .vmem, ⟨10, _⟩ => ⟨S512x512, .f32⟩
  | _, _ => ⟨S3x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S6x512x512_S6x512x512_0_2_1 : S6x512x512.Transposes [0, 2, 1] S6x512x512
  bitsLt_bf16_f32 : FTy.bits .bf16 < FTy.bits .f32
  transposes_S512x3072_S3072x512_1_0 : S512x3072.Transposes [1, 0] S3072x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S3x1x512x512_S1x1x512x512_0_0_0_0 : ∀ a, (![0, 0, 0, 0] : Fin 4 → Nat) a + S1x1x512x512.size a ≤ S3x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  inb_S6x512x512_S1x512x512_0_0_0 : ∀ a, (![0, 0, 0] : Fin 3 → Nat) a + S1x512x512.size a ≤ S6x512x512.size a
  inb_S6x512_S1x512_0_0 : ∀ a, (![0, 0] : Fin 2 → Nat) a + S1x512.size a ≤ S6x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  broadcasts_S512x1_S512x512 : S512x1.Broadcasts S512x512
  inb_S3072x512_S512x512_0_0 : ∀ a, (![0, 0] : Fin 2 → Nat) a + S512x512.size a ≤ S3072x512.size a
  inb_S6x512x512_S1x512x512_1_0_0 : ∀ a, (![1, 0, 0] : Fin 3 → Nat) a + S1x512x512.size a ≤ S6x512x512.size a
  inb_S6x512_S1x512_1_0 : ∀ a, (![1, 0] : Fin 2 → Nat) a + S1x512.size a ≤ S6x512.size a
  inb_S3072x512_S512x512_512_0 : ∀ a, (![512, 0] : Fin 2 → Nat) a + S512x512.size a ≤ S3072x512.size a
  inb_S3x1x512x512_S1x1x512x512_1_0_0_0 : ∀ a, (![1, 0, 0, 0] : Fin 4 → Nat) a + S1x1x512x512.size a ≤ S3x1x512x512.size a
  inb_S6x512x512_S1x512x512_2_0_0 : ∀ a, (![2, 0, 0] : Fin 3 → Nat) a + S1x512x512.size a ≤ S6x512x512.size a
  inb_S6x512_S1x512_2_0 : ∀ a, (![2, 0] : Fin 2 → Nat) a + S1x512.size a ≤ S6x512.size a
  inb_S3072x512_S512x512_1024_0 : ∀ a, (![1024, 0] : Fin 2 → Nat) a + S512x512.size a ≤ S3072x512.size a
  inb_S6x512x512_S1x512x512_3_0_0 : ∀ a, (![3, 0, 0] : Fin 3 → Nat) a + S1x512x512.size a ≤ S6x512x512.size a
  inb_S6x512_S1x512_3_0 : ∀ a, (![3, 0] : Fin 2 → Nat) a + S1x512.size a ≤ S6x512.size a
  inb_S3072x512_S512x512_1536_0 : ∀ a, (![1536, 0] : Fin 2 → Nat) a + S512x512.size a ≤ S3072x512.size a
  inb_S3x1x512x512_S1x1x512x512_2_0_0_0 : ∀ a, (![2, 0, 0, 0] : Fin 4 → Nat) a + S1x1x512x512.size a ≤ S3x1x512x512.size a
  inb_S6x512x512_S1x512x512_4_0_0 : ∀ a, (![4, 0, 0] : Fin 3 → Nat) a + S1x512x512.size a ≤ S6x512x512.size a
  inb_S6x512_S1x512_4_0 : ∀ a, (![4, 0] : Fin 2 → Nat) a + S1x512.size a ≤ S6x512.size a
  inb_S3072x512_S512x512_2048_0 : ∀ a, (![2048, 0] : Fin 2 → Nat) a + S512x512.size a ≤ S3072x512.size a
  inb_S6x512x512_S1x512x512_5_0_0 : ∀ a, (![5, 0, 0] : Fin 3 → Nat) a + S1x512x512.size a ≤ S6x512x512.size a
  inb_S6x512_S1x512_5_0 : ∀ a, (![5, 0] : Fin 2 → Nat) a + S1x512.size a ≤ S6x512.size a
  inb_S3072x512_S512x512_2560_0 : ∀ a, (![2560, 0] : Fin 2 → Nat) a + S512x512.size a ≤ S3072x512.size a
  inb_S512_S512_0 : ∀ a, (![0] : Fin 1 → Nat) a + S512.size a ≤ S512.size a
  h_S512 : 0 < S512.numel
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1x512x512.size a ≤ S3x16x512x512.size a
  hwx0_0 : ∀ i : grid0.Coords, EltTy.bits .f32 = 32 ∨ (Rect.block (s := S3x16x512x512) S3x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x512x512.size a
  hwx0_1 : ∀ i : grid0.Coords, EltTy.bits .f32 = 32 ∨ (Rect.block (s := S16x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x512x512.size a ≤ S6x512x512.size a
  hwx0_2 : ∀ i : grid0.Coords, EltTy.bits .bf16 = 32 ∨ (Rect.block (s := S6x512x512) S6x512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x512.size a ≤ S6x512.size a
  hwx0_3 : ∀ i : grid0.Coords, EltTy.bits .f32 = 32 ∨ (Rect.block (s := S6x512) S6x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x512.size a ≤ S3072x512.size a
  hwx0_4 : ∀ i : grid0.Coords, EltTy.bits .bf16 = 32 ∨ (Rect.block (s := S3072x512) S3072x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S16x512x512.size a
  hwx0_6 : ∀ i : grid0.Coords, EltTy.bits .f32 = 32 ∨ (Rect.block (s := S16x512x512) S1x512x512.size (cc0_transform_6 i) (hinb0_6 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S3x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S6x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S6x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3072x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S3x16x512x512 : Shape := ⟨4, ![3, 16, 512, 512]⟩
abbrev S16x512x512 : Shape := ⟨3, ![16, 512, 512]⟩
abbrev S16x512 : Shape := ⟨2, ![16, 512]⟩
abbrev S6x512x512 : Shape := ⟨3, ![6, 512, 512]⟩
abbrev S6x512 : Shape := ⟨2, ![6, 512]⟩
abbrev S512x3072 : Shape := ⟨2, ![512, 3072]⟩
abbrev S512 : Shape := ⟨1, ![512]⟩
abbrev S1x16x512x512 : Shape := ⟨4, ![1, 16, 512, 512]⟩
abbrev S_ : Shape := ⟨0, ![]⟩
abbrev S16x512x1 : Shape := ⟨3, ![16, 512, 1]⟩
abbrev S1x512x512 : Shape := ⟨3, ![1, 512, 512]⟩
abbrev S512x512 : Shape := ⟨2, ![512, 512]⟩
abbrev S1x512 : Shape := ⟨2, ![1, 512]⟩
abbrev S1x1x512 : Shape := ⟨3, ![1, 1, 512]⟩
abbrev S16x512x1024 : Shape := ⟨3, ![16, 512, 1024]⟩
abbrev S16x512x3072 : Shape := ⟨3, ![16, 512, 3072]⟩

abbrev nBuf : Space → Nat
  | .hbm => 149
  | .vmem => 0
  | .smem => 0
  | _ => 0

abbrev hbmTy0_0 (i : Nat) : BufTy := match i % 128 with
  | 0 => ⟨S3x16x512x512, .f32⟩
  | 1 => ⟨S16x512x512, .f32⟩
  | 2 => ⟨S16x512, .i1⟩
  | 3 => ⟨S16x512, .i1⟩
  | 4 => ⟨S6x512x512, .f32⟩
  | 5 => ⟨S6x512, .f32⟩
  | 6 => ⟨S512x3072, .f32⟩
  | 7 => ⟨S512, .f32⟩
  | 8 => ⟨S1x16x512x512, .f32⟩
  | 9 => ⟨S16x512x512, .f32⟩
  | 10 => ⟨S_, .f32⟩
  | 11 => ⟨S16x512, .f32⟩
  | 12 => ⟨S16x512x1, .f32⟩
  | 13 => ⟨S_, .f32⟩
  | 14 => ⟨S16x512x1, .f32⟩
  | 15 => ⟨S16x512x1, .f32⟩
  | 16 => ⟨S16x512x512, .f32⟩
  | 17 => ⟨S16x512x512, .f32⟩
  | 18 => ⟨S1x512x512, .f32⟩
  | 19 => ⟨S512x512, .f32⟩
  | 20 => ⟨S16x512x512, .f32⟩
  | 21 => ⟨S1x512, .f32⟩
  | 22 => ⟨S512, .f32⟩
  | 23 => ⟨S_, .f32⟩
  | 24 => ⟨S512, .f32⟩
  | 25 => ⟨S512, .f32⟩
  | 26 => ⟨S1x1x512, .f32⟩
  | 27 => ⟨S16x512x512, .f32⟩
  | 28 => ⟨S16x512x512, .f32⟩
  | 29 => ⟨S16x512x512, .f32⟩
  | 30 => ⟨S16x512x512, .f32⟩
  | 31 => ⟨S_, .f32⟩
  | 32 => ⟨S16x512x512, .f32⟩
  | 33 => ⟨S16x512x512, .f32⟩
  | 34 => ⟨S16x512x512, .f32⟩
  | 35 => ⟨S16x512x512, .f32⟩
  | 36 => ⟨S1x512x512, .f32⟩
  | 37 => ⟨S512x512, .f32⟩
  | 38 => ⟨S16x512x512, .f32⟩
  | 39 => ⟨S1x512, .f32⟩
  | 40 => ⟨S512, .f32⟩
  | 41 => ⟨S_, .f32⟩
  | 42 => ⟨S512, .f32⟩
  | 43 => ⟨S512, .f32⟩
  | 44 => ⟨S1x1x512, .f32⟩
  | 45 => ⟨S16x512x512, .f32⟩
  | 46 => ⟨S16x512x512, .f32⟩
  | 47 => ⟨S16x512x512, .f32⟩
  | 48 => ⟨S16x512x512, .f32⟩
  | 49 => ⟨S_, .f32⟩
  | 50 => ⟨S16x512x512, .f32⟩
  | 51 => ⟨S16x512x512, .f32⟩
  | 52 => ⟨S16x512x1024, .f32⟩
  | 53 => ⟨S1x16x512x512, .f32⟩
  | 54 => ⟨S16x512x512, .f32⟩
  | 55 => ⟨S_, .f32⟩
  | 56 => ⟨S16x512, .f32⟩
  | 57 => ⟨S16x512x1, .f32⟩
  | 58 => ⟨S_, .f32⟩
  | 59 => ⟨S16x512x1, .f32⟩
  | 60 => ⟨S16x512x1, .f32⟩
  | 61 => ⟨S16x512x512, .f32⟩
  | 62 => ⟨S16x512x512, .f32⟩
  | 63 => ⟨S1x512x512, .f32⟩
  | 64 => ⟨S512x512, .f32⟩
  | 65 => ⟨S16x512x512, .f32⟩
  | 66 => ⟨S1x512, .f32⟩
  | 67 => ⟨S512, .f32⟩
  | 68 => ⟨S_, .f32⟩
  | 69 => ⟨S512, .f32⟩
  | 70 => ⟨S512, .f32⟩
  | 71 => ⟨S1x1x512, .f32⟩
  | 72 => ⟨S16x512x512, .f32⟩
  | 73 => ⟨S16x512x512, .f32⟩
  | 74 => ⟨S16x512x512, .f32⟩
  | 75 => ⟨S16x512x512, .f32⟩
  | 76 => ⟨S_, .f32⟩
  | 77 => ⟨S16x512x512, .f32⟩
  | 78 => ⟨S16x512x512, .f32⟩
  | 79 => ⟨S16x512x512, .f32⟩
  | 80 => ⟨S16x512x512, .f32⟩
  | 81 => ⟨S1x512x512, .f32⟩
  | 82 => ⟨S512x512, .f32⟩
  | 83 => ⟨S16x512x512, .f32⟩
  | 84 => ⟨S1x512, .f32⟩
  | 85 => ⟨S512, .f32⟩
  | 86 => ⟨S_, .f32⟩
  | 87 => ⟨S512, .f32⟩
  | 88 => ⟨S512, .f32⟩
  | 89 => ⟨S1x1x512, .f32⟩
  | 90 => ⟨S16x512x512, .f32⟩
  | 91 => ⟨S16x512x512, .f32⟩
  | 92 => ⟨S16x512x512, .f32⟩
  | 93 => ⟨S16x512x512, .f32⟩
  | 94 => ⟨S_, .f32⟩
  | 95 => ⟨S16x512x512, .f32⟩
  | 96 => ⟨S16x512x512, .f32⟩
  | 97 => ⟨S16x512x1024, .f32⟩
  | 98 => ⟨S1x16x512x512, .f32⟩
  | 99 => ⟨S16x512x512, .f32⟩
  | 100 => ⟨S_, .f32⟩
  | 101 => ⟨S16x512, .f32⟩
  | 102 => ⟨S16x512x1, .f32⟩
  | 103 => ⟨S_, .f32⟩
  | 104 => ⟨S16x512x1, .f32⟩
  | 105 => ⟨S16x512x1, .f32⟩
  | 106 => ⟨S16x512x512, .f32⟩
  | 107 => ⟨S16x512x512, .f32⟩
  | 108 => ⟨S1x512x512, .f32⟩
  | 109 => ⟨S512x512, .f32⟩
  | 110 => ⟨S16x512x512, .f32⟩
  | 111 => ⟨S1x512, .f32⟩
  | 112 => ⟨S512, .f32⟩
  | 113 => ⟨S_, .f32⟩
  | 114 => ⟨S512, .f32⟩
  | 115 => ⟨S512, .f32⟩
  | 116 => ⟨S1x1x512, .f32⟩
  | 117 => ⟨S16x512x512, .f32⟩
  | 118 => ⟨S16x512x512, .f32⟩
  | 119 => ⟨S16x512x512, .f32⟩
  | 120 => ⟨S16x512x512, .f32⟩
  | 121 => ⟨S_, .f32⟩
  | 122 => ⟨S16x512x512, .f32⟩
  | 123 => ⟨S16x512x512, .f32⟩
  | 124 => ⟨S16x512x512, .f32⟩
  | 125 => ⟨S16x512x512, .f32⟩
  | 126 => ⟨S1x512x512, .f32⟩
  | 127 => ⟨S512x512, .f32⟩
  | _ => ⟨S3x16x512x512, .f32⟩

abbrev hbmTy0_1 (i : Nat) : BufTy := match i % 128 with
  | 0 => ⟨S16x512x512, .f32⟩
  | 1 => ⟨S1x512, .f32⟩
  | 2 => ⟨S512, .f32⟩
  | 3 => ⟨S_, .f32⟩
  | 4 => ⟨S512, .f32⟩
  | 5 => ⟨S512, .f32⟩
  | 6 => ⟨S1x1x512, .f32⟩
  | 7 => ⟨S16x512x512, .f32⟩
  | 8 => ⟨S16x512x512, .f32⟩
  | 9 => ⟨S16x512x512, .f32⟩
  | 10 => ⟨S16x512x512, .f32⟩
  | 11 => ⟨S_, .f32⟩
  | 12 => ⟨S16x512x512, .f32⟩
  | 13 => ⟨S16x512x512, .f32⟩
  | 14 => ⟨S16x512x1024, .f32⟩
  | 15 => ⟨S16x512x3072, .f32⟩
  | 16 => ⟨S16x512x512, .f32⟩
  | 17 => ⟨S1x1x512, .f32⟩
  | 18 => ⟨S16x512x512, .f32⟩
  | 19 => ⟨S16x512x512, .f32⟩
  | 20 => ⟨S16x512x512, .f32⟩
  | _ => ⟨S3x16x512x512, .f32⟩

abbrev hbmTy (i : Nat) : BufTy := match i / 128 with
  | 0 => hbmTy0_0 i
  | 1 => hbmTy0_1 i
  | _ => ⟨S3x16x512x512, .f32⟩

abbrev bufTy : (tb : Table) → Fin (tcTables nBuf tb) → BufTy
  | .hbm, ⟨i, _⟩ => hbmTy i
  | _, _ => ⟨S3x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_cst : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_call2_cst : Ref sig .tc := ⟨.hbm, 76, rfl⟩
abbrev main_call2_v0 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call3_cst : Ref sig .tc := ⟨.hbm, 94, rfl⟩
abbrev main_call3_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_7 : Ref sig .tc := ⟨.hbm, 100, rfl⟩
abbrev main_v76 : Ref sig .tc := ⟨.hbm, 101, rfl⟩
abbrev main_v77 : Ref sig .tc := ⟨.hbm, 102, rfl⟩
abbrev main_cst_8 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_9 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call4_cst : Ref sig .tc := ⟨.hbm, 121, rfl⟩
abbrev main_call4_v0 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_10 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_call5_cst : Ref sig .tc := ⟨.hbm, 139, rfl⟩
abbrev main_call5_v0 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩

abbrev nD : Nat := 1
abbrev τ : Topo := Topo.v7x

variable {F : FTy → Type} [FloatOps F]

class Facts₀ : Prop where
  slices_S3x16x512x512_S1x16x512x512_0_0_0_0 : S3x16x512x512.Slices ![0, 0, 0, 0] S1x16x512x512
  shapeCasts_S1x16x512x512_S16x512x512 : S1x16x512x512.ShapeCasts S16x512x512
  reducesTo_S16x512x512_S16x512_d2 : S16x512x512.ReducesTo [2] S16x512
  h_S_ : 0 < S_.numel
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  slices_S6x512x512_S1x512x512_0_0_0 : S6x512x512.Slices ![0, 0, 0] S1x512x512
  shapeCasts_S1x512x512_S512x512 : S1x512x512.ShapeCasts S512x512
  slices_S6x512_S1x512_0_0 : S6x512.Slices ![0, 0] S1x512
  shapeCasts_S1x512_S512 : S1x512.ShapeCasts S512
  bcast_S_S512 : S_.BroadcastsInDim S512 (![] : Fin 0 → Fin S512.rank)
  bcast_S512_S1x1x512_2 : S512.BroadcastsInDim S1x1x512 (![2] : Fin 1 → Fin S1x1x512.rank)
  bcast_S1x1x512_S16x512x512_0_1_2 : S1x1x512.BroadcastsInDim S16x512x512 (![0, 1, 2] : Fin 3 → Fin S16x512x512.rank)
  bcast_S16x512x1_S16x512x512_0_1_2 : S16x512x1.BroadcastsInDim S16x512x512 (![0, 1, 2] : Fin 3 → Fin S16x512x512.rank)
  bcast_S_S16x512x512 : S_.BroadcastsInDim S16x512x512 (![] : Fin 0 → Fin S16x512x512.rank)
  slices_S6x512x512_S1x512x512_1_0_0 : S6x512x512.Slices ![1, 0, 0] S1x512x512
  slices_S6x512_S1x512_1_0 : S6x512.Slices ![1, 0] S1x512
  concatenates_S16x512x512_S16x512x512_S16x512x1024_d2 : Shape.Concatenates [S16x512x512, S16x512x512] S16x512x1024 2
  slices_S3x16x512x512_S1x16x512x512_1_0_0_0 : S3x16x512x512.Slices ![1, 0, 0, 0] S1x16x512x512
  slices_S6x512x512_S1x512x512_2_0_0 : S6x512x512.Slices ![2, 0, 0] S1x512x512
  slices_S6x512_S1x512_2_0 : S6x512.Slices ![2, 0] S1x512
  slices_S6x512x512_S1x512x512_3_0_0 : S6x512x512.Slices ![3, 0, 0] S1x512x512
  slices_S6x512_S1x512_3_0 : S6x512.Slices ![3, 0] S1x512
  slices_S3x16x512x512_S1x16x512x512_2_0_0_0 : S3x16x512x512.Slices ![2, 0, 0, 0] S1x16x512x512
  slices_S6x512x512_S1x512x512_4_0_0 : S6x512x512.Slices ![4, 0, 0] S1x512x512
  slices_S6x512_S1x512_4_0 : S6x512.Slices ![4, 0] S1x512
  slices_S6x512x512_S1x512x512_5_0_0 : S6x512x512.Slices ![5, 0, 0] S1x512x512
  slices_S6x512_S1x512_5_0 : S6x512.Slices ![5, 0] S1x512
  concatenates_S16x512x1024_S16x512x1024_S16x512x1024_S16x512x3072_d2 : Shape.Concatenates [S16x512x1024, S16x512x1024, S16x512x1024] S16x512x3072 2
  dot_S16x512x512_S16x512x512_S16x512x512_2_1_1_2_0_0_wf : DotDims.WF S16x512x512 S16x512x512 S16x512x512 [2] [1] [1] [2] [0] [0]
  dot_S16x512x512_S512x512_S16x512x512_2_1_01_0_n_n_wf : DotDims.WF S16x512x512 S512x512 S16x512x512 [2] [1] [0, 1] [0] [] []
  dot_S16x512x3072_S512x3072_S16x512x512_2_1_01_0_n_n_wf : DotDims.WF S16x512x3072 S512x3072 S16x512x512 [2] [1] [0, 1] [0] [] []

variable [Facts₀]

def dot_S16x512x512_S16x512x512_S16x512x512_2_1_1_2_0_0 : DotDims S16x512x512 S16x512x512 S16x512x512 where
  lhsContracting := [2]
  rhsContracting := [1]
  lhsNonContracting := [1]
  rhsNonContracting := [2]
  lhsBatch := [0]
  rhsBatch := [0]
  wf := dot_S16x512x512_S16x512x512_S16x512x512_2_1_1_2_0_0_wf
def dot_S16x512x512_S512x512_S16x512x512_2_1_01_0_n_n : DotDims S16x512x512 S512x512 S16x512x512 where
  lhsContracting := [2]
  rhsContracting := [1]
  lhsNonContracting := [0, 1]
  rhsNonContracting := [0]
  lhsBatch := []
  rhsBatch := []
  wf := dot_S16x512x512_S512x512_S16x512x512_2_1_01_0_n_n_wf
def dot_S16x512x3072_S512x3072_S16x512x512_2_1_01_0_n_n : DotDims S16x512x3072 S512x3072 S16x512x512 where
  lhsContracting := [2]
  rhsContracting := [1]
  lhsNonContracting := [0, 1]
  rhsNonContracting := [0]
  lhsBatch := []
  rhsBatch := []
  wf := dot_S16x512x3072_S512x3072_S16x512x512_2_1_01_0_n_n_wf

class Facts : Prop extends Facts₀ where

variable [Facts]
-- ==== Proof.LibWholeStore.lean ====
/-
  A buffer written several times through its whole-shape rectangle.

  A kernel body that keeps a running value in a scratch buffer stores the whole buffer, loads it back, stores again, and
  so on. After any list of stores whose NEWEST store went through the whole-shape rectangle at zero offsets, a load
  through that rectangle reads the newest store's payload: the earlier stores are all overwritten.
-/
import Idealize.ShloMosaic.Lib.Pipeline.Value

noncomputable section

namespace Idealize.ShloMosaic.View

variable {Val : EltTy → Type} {S : Shape} {e : EltTy}

/-- A load through the whole-shape rectangle, after stores of which the newest went through the whole-shape
    rectangle, reads the newest store's payload, whatever the earlier stores were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, mem_set_unit_zero rfl inb y⟩),
    canon_cons_unit_zero rfl, ld_unit_zero rfl]

end Idealize.ShloMosaic.View

end
-- ==== Proof.KernelBody.lean ====
/-
  The kernel body at one grid point as ONE pure function of the blocks it loads.

  The body keeps an accumulator in a scratch buffer: it stores zeros, then six times reads the accumulator back, adds a
  512 × 512 product and stores the sum; at the end it reads the accumulator once more, adds the output bias and the
  input features, and stores the result block. Reading a buffer right after one covering store gives the stored value,
  so the chain of stores and loads collapses to a composition of three kinds of steps:

    mix A P        the rounded sum  A · P + P                      (one matrix product)
    dense M w b    M · w + 2 b, scaled row by row by the reciprocal normaliser, rectified
    step acc H wo  acc + H · wo                                    (one block of the output projection)

  together with the reciprocal normaliser of an adjacency block, 1 / (row sum + 1), kept as a column.
  `body` spells the whole composition; `found_eq_body` says that the block the frame run found for the output window is
  `body` of the loaded blocks, for any float instance.
-/
import proofs.«118928_j90305982366173_2_alg».proof.Proof.Gen.KernelIdeal.Frame
import Idealize.ShloMosaic.Lib.Pipeline.Value
import Idealize.ShloMosaic.Lib.Tactic
import proofs.«118928_j90305982366173_2_alg».proof.Proof.LibWholeStore

set_option maxRecDepth 16384

noncomputable section

namespace Cert.KernelBody

open Cert.KernelIdeal Cert.KernelIdeal.Gen Idealize.ShloMosaic Idealize.ShloMosaic.TcCoe Idealize.SL.Sem Idealize.ShloMosaic.Tactic

variable {F : FTy → Type} [FloatOps F]

/-- The reciprocal normaliser of an adjacency block, as a column: 1 / (row sum + 1). -/
def recipNorm (a : FVec F S512x512 .f32) : FVec F S512x1 .f32 :=
  divf (broadcast S512x1 (Scalar.ofBits .f32 0x3F800000#32))
    (addf (shapeCast S512x1 (multiReduction .add [1] S512 a 0x00000000#32 reduces_S512x512_S512 (.inl rfl) rfl) shapeCasts_S512_S512x1)
      (broadcast S512x1 (Scalar.ofBits .f32 0x3F800000#32)))

/-- The mixing step: A · P + P, rounded to the matrix unit's input format (`Pb` is `P` in that format). -/
def mix (aB : FVec F S512x512 .bf16) (P : FVec F S512x512 .f32) (Pb : FVec F S512x512 .bf16) : FVec F S512x512 .bf16 :=
  truncf .bf16 (addf (matmul dot_S512x512_S512x512_S512x512_1_0_0_1_n_n none aB Pb (constant S512x512 .f32 0x00000000#32)) P) bitsLt_bf16_f32

/-- M · w + 2 b, the bias row spread over the rows. -/
def affine (M : FVec F S512x512 .bf16) (w : Vec F S1x512x512 .bf16) (b : Vec F S1x512 .f32) : FVec F S512x512 .f32 :=
  addf (matmul dot_S512x512_S512x512_S512x512_1_0_0_1_n_n none M (shapeCast S512x512 w shapeCasts_S1x512x512_S512x512) (constant S512x512 .f32 0x00000000#32))
    (broadcastTo S512x512 (shapeCast S1x512 (mulf (broadcast S512 (Scalar.ofBits .f32 0x40000000#32)) (shapeCast S512 b shapeCasts_S1x512_S512)) shapeCasts_S512_S1x512) broadcasts_S1x512_S512x512)

/-- The dense step: the affine map, each row scaled by its reciprocal normaliser, then rectified. -/
def dense (M : FVec F S512x512 .bf16) (rn : FVec F S512x1 .f32) (w : Vec F S1x512x512 .bf16) (b : Vec F S1x512 .f32) : FVec F S512x512 .f32 :=
  maximumf (mulf (affine M w b) (broadcastTo S512x512 rn broadcasts_S512x1_S512x512)) (broadcast S512x512 (Scalar.ofBits .f32 0x00000000#32))

/-- One block of the output projection added to the accumulator. -/
def step (acc : Vec F S512x512 .f32) (H : FVec F S512x512 .f32) (wo : Vec F S512x512 .bf16) : FVec F S512x512 .f32 :=
  shapeCast S512x512 (addf acc (matmul dot_S512x512_S512x512_S512x512_1_0_0_1_n_n none (truncf .bf16 H bitsLt_bf16_f32) (shapeCast S512x512 wo shapeCasts_S512x512_S512x512) (constant S512x512 .f32 0x00000000#32))) shapeCasts_S512x512_S512x512

/-- The accumulator before the first block: zeros. -/
def zeros : FVec F S512x512 .f32 :=
  shapeCast S512x512 (broadcast S512x512 (Scalar.ofBits .f32 0x00000000#32)) shapeCasts_S512x512_S512x512

/-- The last lines: accumulator + output bias row, + input features, as a 1 × 512 × 512 block. -/
def finish (X : FVec F S512x512 .f32) (acc : Vec F S512x512 .f32) (bo : Vec F S512 .f32) : FVec F S1x512x512 .f32 :=
  shapeCast S1x512x512 (addf X (addf acc (broadcastTo S512x512 (shapeCast S1x512 bo shapeCasts_S512_S1x512) broadcasts_S1x512_S512x512))) shapeCasts_S512x512_S1x512x512

/-- One graph layer on a batch element: adjacency block `a`, incoming state `P`, weights `w`, bias `b`. -/
def hidden (a P : FVec F S512x512 .f32) (w : Vec F S1x512x512 .bf16) (b : Vec F S1x512 .f32) : FVec F S512x512 .f32 :=
  dense (mix (truncf .bf16 a bitsLt_bf16_f32) P (truncf .bf16 P bitsLt_bf16_f32)) (recipNorm a) w b

/-- The whole body: the result block from the loaded blocks. Head `h` (adjacency block `a h`) runs two layers from the
    features `X`, with weights `2h` then `2h + 1`; each hidden state adds its block of the output projection. -/
def body (a0 a1 a2 X : FVec F S512x512 .f32)
    (w0 w1 w2 w3 w4 w5 : Vec F S1x512x512 .bf16) (b0 b1 b2 b3 b4 b5 : Vec F S1x512 .f32)
    (o0 o1 o2 o3 o4 o5 : Vec F S512x512 .bf16) (bo : Vec F S512 .f32) : FVec F S1x512x512 .f32 :=
  finish X
    (step (step (step (step (step (step zeros (hidden a0 X w0 b0) o0) (hidden a0 (hidden a0 X w0 b0) w1 b1) o1)
      (hidden a1 X w2 b2) o2) (hidden a1 (hidden a1 X w2 b2) w3 b3) o3)
      (hidden a2 X w4 b4) o4) (hidden a2 (hidden a2 X w4 b4) w5 b5) o5)
    bo

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block the run found for the output window is `body` of the blocks it loaded: the adjacency blocks are the three
    slabs of the first operand, the weights, biases and projection blocks are slabs of the third, fourth and fifth. -/
theorem found_eq_body (c : Dev nD) (i : grid0.Coords) (arg1 : Memref sig .tc .vmem S3x1x512x512 .f32) (harg1 : arg1.IsWhole) (arg2 : Memref sig .tc .vmem S1x512x512 .f32) (harg2 : arg2.IsWhole) (arg3 : Memref sig .tc .vmem S6x512x512 .bf16) (harg3 : arg3.IsWhole) (arg4 : Memref sig .tc .vmem S6x512 .f32) (harg4 : arg4.IsWhole) (arg5 : Memref sig .tc .vmem S3072x512 .bf16) (harg5 : arg5.IsWhole) (arg6 : Memref sig .tc .vmem S512 .f32) (harg6 : arg6.IsWhole) (arg7 : Memref sig .tc .vmem S1x512x512 .f32) (harg7 : arg7.IsWhole) (arg8 : Memref sig .tc .vmem S512x512 .f32) (harg8 : arg8.IsWhole)
    (x0 : Vec F S3x1x512x512 .f32) (x1 : Vec F S1x512x512 .f32) (x2 : Vec F S6x512x512 .bf16) (x3 : Vec F S6x512 .f32) (x4 : Vec F S3072x512 .bf16) (x5 : Vec F S512 .f32) :
    out0_A_6 c i arg1 harg1 arg2 harg2 arg3 harg3 arg4 harg4 arg5 harg5 arg6 harg6 arg7 harg7 arg8 harg8 x0 x1 x2 x3 x4 x5 = body
      (shapeCast S512x512 (View.ld x0 (Rect.unit ![0, 0, 0, 0] S1x1x512x512.size inb_S3x1x512x512_S1x1x512x512_0_0_0_0)) shapeCasts_S1x1x512x512_S512x512)
      (shapeCast S512x512 (View.ld x0 (Rect.unit ![1, 0, 0, 0] S1x1x512x512.size inb_S3x1x512x512_S1x1x512x512_1_0_0_0)) shapeCasts_S1x1x512x512_S512x512)
      (shapeCast S512x512 (View.ld x0 (Rect.unit ![2, 0, 0, 0] S1x1x512x512.size inb_S3x1x512x512_S1x1x512x512_2_0_0_0)) shapeCasts_S1x1x512x512_S512x512)
      (shapeCast S512x512 x1 shapeCasts_S1x512x512_S512x512)
      (View.ld x2 (Rect.unit ![0, 0, 0] S1x512x512.size inb_S6x512x512_S1x512x512_0_0_0)) (View.ld x2 (Rect.unit ![1, 0, 0] S1x512x512.size inb_S6x512x512_S1x512x512_1_0_0)) (View.ld x2 (Rect.unit ![2, 0, 0] S1x512x512.size inb_S6x512x512_S1x512x512_2_0_0)) (View.ld x2 (Rect.unit ![3, 0, 0] S1x512x512.size inb_S6x512x512_S1x512x512_3_0_0)) (View.ld x2 (Rect.unit ![4, 0, 0] S1x512x512.size inb_S6x512x512_S1x512x512_4_0_0)) (View.ld x2 (Rect.unit ![5, 0, 0] S1x512x512.size inb_S6x512x512_S1x512x512_5_0_0))
      (View.ld x3 (Rect.unit ![0, 0] S1x512.size inb_S6x512_S1x512_0_0)) (View.ld x3 (Rect.unit ![1, 0] S1x512.size inb_S6x512_S1x512_1_0)) (View.ld x3 (Rect.unit ![2, 0] S1x512.size inb_S6x512_S1x512_2_0)) (View.ld x3 (Rect.unit ![3, 0] S1x512.size inb_S6x512_S1x512_3_0)) (View.ld x3 (Rect.unit ![4, 0] S1x512.size inb_S6x512_S1x512_4_0)) (View.ld x3 (Rect.unit ![5, 0] S1x512.size inb_S6x512_S1x512_5_0))
      (View.ld x4 (Rect.unit ![0, 0] S512x512.size inb_S3072x512_S512x512_0_0)) (View.ld x4 (Rect.unit ![512, 0] S512x512.size inb_S3072x512_S512x512_512_0)) (View.ld x4 (Rect.unit ![1024, 0] S512x512.size inb_S3072x512_S512x512_1024_0)) (View.ld x4 (Rect.unit ![1536, 0] S512x512.size inb_S3072x512_S512x512_1536_0)) (View.ld x4 (Rect.unit ![2048, 0] S512x512.size inb_S3072x512_S512x512_2048_0)) (View.ld x4 (Rect.unit ![2560, 0] S512x512.size inb_S3072x512_S512x512_2560_0))
      x5 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz3]
  simp only [View.readAt_eq_ld, harg1.read_unread, harg2.read_unread, harg3.read_unread, harg4.read_unread, harg5.read_unread, harg6.read_unread,
    View.ld_unit_zero (S := S1x512x512) hz3, View.ld_unit_zero (S := S512) hz1, View.ld_unit_zero (S := S512x512) hz2, View.readCov_cons_unit_zero (S := S512x512) _ hz2]
  rfl

end Cert.KernelBody

end
-- ==== Proof.LibColumnForms.lean ====
/-
  Keepdims column forms read at an index given by coordinates: a vector `[a]` cast to the column `[a, 1]`, a column
  `[a, 1]` cast to the row `[1, a]`, and a column `[a, 1]` broadcast along the lanes to `[a, b]`. Each is the
  library's general lemma for the operation (a shape cast keeps the row-major position; a broadcast reads `0` on the
  operand's unit axes) with both indices written by coordinates, so that it applies to a printed operation by
  unification.
  Two more readings at the extended reals close the file: a lane sum of a matrix into the zero word is, at row `r`, the sum of
  that row's entries; and a square root of a vector is taken element by element.
-/
import Idealize.ShloMosaic.Lib.ValueIdx
import Idealize.ShloMosaic.Lib.Pipeline.Value
import Idealize.ShloMosaic.Lib.ValueLayout
import Idealize.ShloMosaic.PureOps.Ideal.Laws

open scoped BigOperators

namespace Cert.ColumnForms

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along the lanes to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A lane sum and a square root at the extended reals -/

/-- A binary32 `add` reduction of an `[a, b]` matrix over its lanes, from the zero word, reads at row `r` the sum of the
    row's `b` entries. The accumulator's side condition is taken as the equation between the two zero words that a
    printed operation carries. -/
theorem multiReduction_add_lanes_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun c => Fin.ext ?_)
  match c with
  | ⟨0, _⟩ => rfl
  | ⟨1, _⟩ => rfl

/-- A square root of a vector at an index is the extended reals' square root of the element. -/
theorem sqrt_apply {s : Shape} {φ : FTy} (x : FVec Ideal s φ) (i : s.Idx) :
    Idealize.ShloMosaic.sqrt x i = Ideal.sqrt (x i) := rfl

end Cert.ColumnForms
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.ReluQuotient.lean ====
/-
  The one scalar law that joins the two programs. One side divides a row by its normaliser, the other multiplies the
  row by the normaliser's reciprocal; both then rectify. On the extended reals the quotient `x / d` is `x · d⁻¹` off
  zero, and by zero it is the infinity of `x`'s sign, with `0 / 0` the bottom element. The reciprocal `1 / d` is
  `d⁻¹` off zero and `⊤` at zero, so the product `x · (1 / d)` agrees with the quotient everywhere except at
  `x = 0, d = 0`, where the product is `0` and the quotient is `⊥`. The maximum with `0` sends both to `0`: after
  the rectifier the two are one function of every pair of extended reals, with no finiteness assumed.
-/
import Idealize.ShloMosaic.PureOps.Ideal
import Idealize.ShloMosaic.PureOps.Ideal.Laws
import Idealize.ShloMosaic.PureOps.IdealRules

noncomputable section

namespace Cert.ReluQuotient

open Idealize.ShloMosaic

/-- The single-precision word of `1.0` denotes the real number one. -/
theorem one_word : Ideal.ofBits .f32 0x3F800000#32 = 1 := IdealRules.sign_bit.ideal_onePat .f32

/-- A non-positive extended real times `⊤` is non-positive: `0 · ⊤ = 0`, and a negative times `⊤` is `⊥`. -/
theorem mul_top_nonpos {x : EReal} (hx : x ≤ 0) : x * ⊤ ≤ 0 := by
  rcases hx.lt_or_eq with h | h
  · rw [EReal.mul_top_of_neg h]; exact bot_le
  · rw [h, zero_mul]

/-- Rectified product with the reciprocal = rectified quotient, for every numerator and every divisor. -/
theorem relu_mul_recip (x d : EReal) : max (x * Ideal.div 1 d) 0 = max (Ideal.div x d) 0 := by
  unfold Ideal.div
  by_cases hd : d = 0
  · rw [if_pos hd, if_pos hd, if_pos zero_lt_one]
    by_cases hx : 0 < x
    · rw [if_pos hx, EReal.mul_top_of_pos hx]
    · rw [if_neg hx, max_eq_right (mul_top_nonpos (not_lt.mp hx)), max_eq_right bot_le]
  · rw [if_neg hd, if_neg hd, one_mul]

/-- The same with the numerator `1.0` spelt as its single-precision word, as a printed program spells it. -/
theorem relu_mul_recip_word (x d : EReal) :
    max (x * Ideal.div (Ideal.ofBits .f32 0x3F800000#32) d) 0 = max (Ideal.div x d) 0 := by
  rw [one_word]; exact relu_mul_recip x d

end Cert.ReluQuotient

end
-- ==== Proof.GraphSpec.lean ====
/-
  What both programs compute, as one function of the argument arrays, index by index.

  For one batch element the inputs are three adjacency matrices `A h` (512 × 512), the node features `X` (512 × 512),
  six weight matrices `W k` with biases `β k`, the output weights `Wo` (512 × 3072) and the output bias `βo`.
  A graph layer with adjacency `A`, weights `W`, bias `β` sends node features `P` to

      layer P s e = max ( ( ∑ d, ((∑ t, A s t · P t d) + P s d) · W e d  +  2 · β e ) / (∑ t, A s t + 1) , 0 ).

  Head `h` runs two layers from `X` (weights `2h` and `2h+1`); the six hidden states `H 0 … H 5`, set side by side, form
  a 512 × 3072 matrix that is multiplied by `Woᵀ`; the bias and the input features are added:

      out s e = X s e + ( ∑ k < 6, ∑ d < 512, H k s d · Wo e (512 k + d)  +  βo e ).

  The sum over the 3072 columns is written block by block (six blocks of 512); `sum_columns` says that this is the sum
  over all 3072 columns of any function of the column.
-/
import Idealize.ShloMosaic.PureOps.Ideal
import Idealize.ShloMosaic.PureOps.Ideal.Laws
import Idealize.ShloMosaic.Lib.ValueIdx

noncomputable section

namespace Cert.GraphSpec

open Idealize.ShloMosaic Idealize.ShloMosaic.ValueIdx

/-- A 512 × 512 matrix of extended reals, by row and column. -/
abbrev Mat : Type := Fin 512 → Fin 512 → EReal

/-- The literals `1.0` and `2.0`, kept as their words (both programs spell the same words). -/
abbrev one : EReal := Ideal.ofBits .f32 0x3F800000#32
abbrev two : EReal := Ideal.ofBits .f32 0x40000000#32

/-- The normaliser of row `s`: the row sum of the adjacency matrix, plus one. -/
def norm (A : Mat) (s : Fin 512) : EReal := (∑ t, A s t) + one

/-- One graph layer at node `s`, feature `e`. -/
def layer (A W : Mat) (β : Fin 512 → EReal) (P : Mat) (s e : Fin 512) : EReal :=
  max (Ideal.div ((∑ d, ((∑ t, A s t * P t d) + P s d) * W e d) + two * β e) (norm A s)) 0

/-- Column `512 k + d` of the 3072 concatenated hidden features. -/
abbrev col (k : Fin 6) (d : Fin 512) : Fin 3072 := ⟨512 * k.val + d.val, by omega⟩

/-- Block `k` of the output projection: hidden state `H` against columns `512 k … 512 k + 511` of `Wo`. -/
def proj (H : Mat) (Wo : Fin 512 → Fin 3072 → EReal) (k : Fin 6) (s e : Fin 512) : EReal :=
  ∑ d : Fin 512, H s d * Wo e (col k d)

/-- The network on one batch element. -/
def out (A : Fin 3 → Mat) (X : Mat) (W : Fin 6 → Mat) (β : Fin 6 → Fin 512 → EReal)
    (Wo : Fin 512 → Fin 3072 → EReal) (βo : Fin 512 → EReal) (s e : Fin 512) : EReal :=
  X s e + ((proj (layer (A 0) (W 0) (β 0) X) Wo 0 s e
      + proj (layer (A 0) (W 1) (β 1) (layer (A 0) (W 0) (β 0) X)) Wo 1 s e
      + proj (layer (A 1) (W 2) (β 2) X) Wo 2 s e
      + proj (layer (A 1) (W 3) (β 3) (layer (A 1) (W 2) (β 2) X)) Wo 3 s e
      + proj (layer (A 2) (W 4) (β 4) X) Wo 4 s e
      + proj (layer (A 2) (W 5) (β 5) (layer (A 2) (W 4) (β 4) X)) Wo 5 s e) + βo e)

/-- The whole result array: batch element `i 0`, node `i 1`, feature `i 2`. -/
def G (x0 : FVec Ideal ⟨4, ![3, 16, 512, 512]⟩ .f32) (x1 : FVec Ideal ⟨3, ![16, 512, 512]⟩ .f32)
    (x4 : FVec Ideal ⟨3, ![6, 512, 512]⟩ .f32) (x5 : FVec Ideal ⟨2, ![6, 512]⟩ .f32)
    (x6 : FVec Ideal ⟨2, ![512, 3072]⟩ .f32) (x7 : FVec Ideal ⟨1, ![512]⟩ .f32) :
    FVec Ideal ⟨3, ![16, 512, 512]⟩ .f32 :=
  fun i => out (fun h s t => x0 (ix4 h (i 0 : Fin 16) s t)) (fun s d => x1 (ix3 (i 0 : Fin 16) s d))
    (fun k e d => x4 (ix3 k e d)) (fun k e => x5 (ix2 k e)) (fun e f => x6 (ix2 e f)) (fun e => x7 (ix1 e))
    (i 1 : Fin 512) (i 2 : Fin 512)

/-- A sum over the 3072 columns is the sum of its six blocks of 512. -/
theorem sum_columns (g : Fin 3072 → EReal) :
    ∑ f : Fin 3072, g f = (∑ d, g (col 0 d)) + (∑ d, g (col 1 d)) + (∑ d, g (col 2 d))
      + (∑ d, g (col 3 d)) + (∑ d, g (col 4 d)) + (∑ d, g (col 5 d)) := by
  have e : ∑ f : Fin 3072, g f = ∑ p : Fin 6 × Fin 512, g (col p.1 p.2) := by
    refine (Fintype.sum_equiv (finProdFinEquiv (m := 6) (n := 512)) _ _ fun p => ?_).symm
    exact congrArg g (Fin.ext (by simp [finProdFinEquiv]; omega))
  rw [e, Fintype.sum_prod_type, Fin.sum_univ_six]

end Cert.GraphSpec

end
-- ==== Proof.KernelEntries.lean ====
/-
  The kernel body's steps read entry by entry over the extended reals.

  With a 512 × 512 array `v` read as the matrix `v (s, d)`:
    the reciprocal normaliser at row `s` is  1 / (∑ t, a (s, t) + 1);
    the mixing step at (s, d) is             ∑ t, a (s, t) · P (t, d) + P (s, d)      (the change of format is the identity);
    the affine map at (s, e) is              ∑ d, M (s, d) · w (d, e) + 2 · b (e);
    the dense step multiplies by the reciprocal normaliser of the row and takes the maximum with 0;
    a projection step at (s, e) is           acc (s, e) + ∑ d, H (s, d) · wo (d, e).
  A rectified product with the reciprocal is the rectified quotient (`ReluQuotient`), so one layer of the kernel is
  `GraphSpec.layer`, and the whole body is `GraphSpec.out` of the matrices its blocks hold.
-/
import proofs.«118928_j90305982366173_2_alg».proof.Proof.KernelBody
import proofs.«118928_j90305982366173_2_alg».proof.Proof.LibColumnForms
import proofs.«118928_j90305982366173_2_alg».proof.Proof.LibDenseEntry
import proofs.«118928_j90305982366173_2_alg».proof.Proof.ReluQuotient
import proofs.«118928_j90305982366173_2_alg».proof.Proof.GraphSpec
import Idealize.ShloMosaic.Lib.ValueLayout
import Idealize.ShloMosaic.Lib.ValueIdx
import Idealize.ShloMosaic.PureOps.Ideal.Laws

noncomputable section

namespace Cert.KernelEntries

open Cert.KernelIdeal Cert.KernelBody Cert.GraphSpec Idealize.ShloMosaic Idealize.ShloMosaic.ValueIdx

/-- A 512 × 512 product into the zero accumulator at an entry: the sum over the contracted axis. -/
theorem mm_apply {φ₁ φ₂ : FTy} (l : FVec Ideal S512x512 φ₁) (r : FVec Ideal S512x512 φ₂) (p n : Fin 512) :
    matmul dot_S512x512_S512x512_S512x512_1_0_0_1_n_n none l r (constant S512x512 .f32 0x00000000#32) (ix2 p n)
      = ∑ k : Fin 512, l (ix2 p k) * r (ix2 k n) :=
  Cert.LibDenseEntry.matmul_plain_zero_apply dot_S512x512_S512x512_S512x512_1_0_0_1_n_n rfl rfl rfl rfl rfl rfl none l r p n

/-- The reciprocal normaliser at row `s`: 1 / (row sum + 1), the numerator still spelt as its word. -/
theorem recipNorm_apply (a : FVec Ideal S512x512 .f32) (A : Mat) (ha : ∀ s t, a (ix2 s t) = A s t) (s : Fin 512) :
    recipNorm a (ix2 s (0 : Fin 1)) = Ideal.div (Ideal.ofBits .f32 0x3F800000#32) (GraphSpec.norm A s) := by
  unfold recipNorm GraphSpec.norm
  rw [divf_apply, addf_apply, broadcast_apply, Cert.ColumnForms.shapeCast_a_a1_apply,
    Cert.ColumnForms.multiReduction_add_lanes_f32]
  simp only [ha]
  rfl

/-- The mixing step at an entry. -/
theorem mix_apply (aB : FVec Ideal S512x512 .bf16) (P : FVec Ideal S512x512 .f32) (Pb : FVec Ideal S512x512 .bf16)
    (s d : Fin 512) : mix aB P Pb (ix2 s d) = (∑ t : Fin 512, aB (ix2 s t) * Pb (ix2 t d)) + P (ix2 s d) := by
  unfold mix
  rw [truncf_apply, addf_apply, mm_apply]

/-- The affine map at an entry. -/
theorem affine_apply (M : FVec Ideal S512x512 .bf16) (w : Vec Ideal S1x512x512 .bf16) (b : Vec Ideal S1x512 .f32)
    (s e : Fin 512) :
    affine M w b (ix2 s e) = (∑ d : Fin 512, M (ix2 s d) * w (ix3 (0 : Fin 1) d e)) + two * b (ix2 (0 : Fin 1) e) := by
  unfold affine
  rw [addf_apply, mm_apply, broadcastTo_1b_ab_apply, shapeCast_a_1a_apply, mulf_apply, broadcast_apply,
    shapeCast_1a_a_apply]
  simp only [shapeCast_1ab_ab_apply]
  rfl

/-- The dense step at an entry: the affine map times the row's reciprocal normaliser, rectified. -/
theorem dense_apply (M : FVec Ideal S512x512 .bf16) (rn : FVec Ideal S512x1 .f32) (w : Vec Ideal S1x512x512 .bf16)
    (b : Vec Ideal S1x512 .f32) (s e : Fin 512) :
    dense M rn w b (ix2 s e) = max (affine M w b (ix2 s e) * rn (ix2 s (0 : Fin 1))) 0 := by
  unfold dense
  rw [maximumf_apply, mulf_apply, Cert.ColumnForms.broadcastTo_a1_ab_apply, broadcast_apply]
  exact congrArg (max _) Ideal.ofBits_zero_f32

/-- A projection step at an entry. -/
theorem step_apply (acc : Vec Ideal S512x512 .f32) (H : FVec Ideal S512x512 .f32) (wo : Vec Ideal S512x512 .bf16)
    (s e : Fin 512) : step acc H wo (ix2 s e) = acc (ix2 s e) + ∑ d : Fin 512, H (ix2 s d) * wo (ix2 d e) := by
  unfold step
  rw [shapeCast_self, addf_apply, mm_apply]
  simp only [truncf_apply, shapeCast_self]

/-- The accumulator starts at zero. -/
theorem zeros_apply (i : S512x512.Idx) : zeros (F := Ideal) i = 0 := by
  unfold zeros
  rw [shapeCast_self, broadcast_apply]
  exact Ideal.ofBits_zero_f32

/-- The last lines at an entry of the 1 × 512 × 512 result block. -/
theorem finish_apply (X : FVec Ideal S512x512 .f32) (acc : Vec Ideal S512x512 .f32) (bo : Vec Ideal S512 .f32)
    (s e : Fin 512) :
    finish X acc bo (ix3 (0 : Fin 1) s e) = X (ix2 s e) + (acc (ix2 s e) + bo (ix1 e)) := by
  unfold finish
  rw [shapeCast_ab_1ab_apply, addf_apply, addf_apply, broadcastTo_1b_ab_apply, shapeCast_a_1a_apply]

/-- One layer of the kernel is the specification's layer of the matrices its blocks hold: the rectified product with the
    reciprocal normaliser is the rectified quotient. -/
theorem hidden_apply (a P : FVec Ideal S512x512 .f32) (w : Vec Ideal S1x512x512 .bf16) (b : Vec Ideal S1x512 .f32)
    (A W Pm : Mat) (β : Fin 512 → EReal)
    (ha : ∀ s t, a (ix2 s t) = A s t) (hP : ∀ s d, P (ix2 s d) = Pm s d)
    (hw : ∀ d e, w (ix3 (0 : Fin 1) d e) = W e d) (hb : ∀ e, b (ix2 (0 : Fin 1) e) = β e) (s e : Fin 512) :
    KernelBody.hidden a P w b (ix2 s e) = layer A W β Pm s e := by
  unfold KernelBody.hidden layer
  rw [dense_apply, affine_apply, recipNorm_apply a A ha s, Cert.ReluQuotient.relu_mul_recip_word]
  simp only [mix_apply, truncf_apply, ha, hP, hw, hb]

/-- The whole body at an entry is the specification's network on the matrices its blocks hold. -/
theorem body_apply (a0 a1 a2 X : FVec Ideal S512x512 .f32)
    (w0 w1 w2 w3 w4 w5 : Vec Ideal S1x512x512 .bf16) (b0 b1 b2 b3 b4 b5 : Vec Ideal S1x512 .f32)
    (o0 o1 o2 o3 o4 o5 : Vec Ideal S512x512 .bf16) (bo : Vec Ideal S512 .f32)
    (A : Fin 3 → Mat) (Xm : Mat) (W : Fin 6 → Mat) (β : Fin 6 → Fin 512 → EReal)
    (Wo : Fin 512 → Fin 3072 → EReal) (βo : Fin 512 → EReal)
    (ha0 : ∀ s t, a0 (ix2 s t) = A 0 s t) (ha1 : ∀ s t, a1 (ix2 s t) = A 1 s t) (ha2 : ∀ s t, a2 (ix2 s t) = A 2 s t)
    (hX : ∀ s d, X (ix2 s d) = Xm s d)
    (hw0 : ∀ d e, w0 (ix3 (0 : Fin 1) d e) = W 0 e d) (hw1 : ∀ d e, w1 (ix3 (0 : Fin 1) d e) = W 1 e d)
    (hw2 : ∀ d e, w2 (ix3 (0 : Fin 1) d e) = W 2 e d) (hw3 : ∀ d e, w3 (ix3 (0 : Fin 1) d e) = W 3 e d)
    (hw4 : ∀ d e, w4 (ix3 (0 : Fin 1) d e) = W 4 e d) (hw5 : ∀ d e, w5 (ix3 (0 : Fin 1) d e) = W 5 e d)
    (hb0 : ∀ e, b0 (ix2 (0 : Fin 1) e) = β 0 e) (hb1 : ∀ e, b1 (ix2 (0 : Fin 1) e) = β 1 e)
    (hb2 : ∀ e, b2 (ix2 (0 : Fin 1) e) = β 2 e) (hb3 : ∀ e, b3 (ix2 (0 : Fin 1) e) = β 3 e)
    (hb4 : ∀ e, b4 (ix2 (0 : Fin 1) e) = β 4 e) (hb5 : ∀ e, b5 (ix2 (0 : Fin 1) e) = β 5 e)
    (ho0 : ∀ d e, o0 (ix2 d e) = Wo e (col 0 d)) (ho1 : ∀ d e, o1 (ix2 d e) = Wo e (col 1 d))
    (ho2 : ∀ d e, o2 (ix2 d e) = Wo e (col 2 d)) (ho3 : ∀ d e, o3 (ix2 d e) = Wo e (col 3 d))
    (ho4 : ∀ d e, o4 (ix2 d e) = Wo e (col 4 d)) (ho5 : ∀ d e, o5 (ix2 d e) = Wo e (col 5 d))
    (hbo : ∀ e, bo (ix1 e) = βo e) (s e : Fin 512) :
    body a0 a1 a2 X w0 w1 w2 w3 w4 w5 b0 b1 b2 b3 b4 b5 o0 o1 o2 o3 o4 o5 bo (ix3 (0 : Fin 1) s e)
      = out A Xm W β Wo βo s e := by
  have h0 := hidden_apply a0 X w0 b0 (A 0) (W 0) Xm (β 0) ha0 hX hw0 hb0
  have h1 := hidden_apply a0 (KernelBody.hidden a0 X w0 b0) w1 b1 (A 0) (W 1) _ (β 1) ha0 h0 hw1 hb1
  have h2 := hidden_apply a1 X w2 b2 (A 1) (W 2) Xm (β 2) ha1 hX hw2 hb2
  have h3 := hidden_apply a1 (KernelBody.hidden a1 X w2 b2) w3 b3 (A 1) (W 3) _ (β 3) ha1 h2 hw3 hb3
  have h4 := hidden_apply a2 X w4 b4 (A 2) (W 4) Xm (β 4) ha2 hX hw4 hb4
  have h5 := hidden_apply a2 (KernelBody.hidden a2 X w4 b4) w5 b5 (A 2) (W 5) _ (β 5) ha2 h4 hw5 hb5
  unfold body out proj
  rw [finish_apply, step_apply, step_apply, step_apply, step_apply, step_apply, step_apply, zeros_apply, zero_add]
  simp only [h0, h1, h2, h3, h4, h5, ho0, ho1, ho2, ho3, ho4, ho5, hX, hbo]

end Cert.KernelEntries

end
-- ==== Proof.LibSlabs.lean ====
/-
  Slabs of an array read through a unit-stride rectangle that keeps the trailing axes whole.

  A load of `n` consecutive positions of the leading axis, starting at `o`, with every other axis whole, reads at local
  coordinates `(i, j, …)` the array at `(o + i, j, …)`. Stated at ranks two, three and four, with the indices written
  by coordinates. A last lemma reads a `[1, 1, a, b]` array cast to `[a, b]`.
-/
import Idealize.ShloMosaic.Lib.Pipeline.Value
import Idealize.ShloMosaic.Lib.ValueIdx
import Idealize.ShloMosaic.Lib.ValueLayout

noncomputable section

namespace Cert.LibSlabs

open Idealize.ShloMosaic Idealize.ShloMosaic.ValueIdx

variable {Val : EltTy → Type} {e : EltTy}

/-- Rows `o … o + n - 1` of an `[m, b]` array: local `(i, j)` reads the array at `(o + i, j)`. -/
theorem ld_rows2 {m n b : ℕ} (X : (⟨2, ![m, b]⟩ : Shape).Idx → Val e) (o : ℕ)
    (inb : ∀ a, (![o, 0] : Fin 2 → ℕ) a + (![n, b] : Fin 2 → ℕ) a ≤ (⟨2, ![m, b]⟩ : Shape).size a)
    (i : Fin n) (j : Fin b) (hlt : o + i.val < m) :
    View.ld X (Rect.unit ![o, 0] ![n, b] inb) (ix2 i j) = X (ix2 ⟨o + i.val, hlt⟩ j) := by
  refine congrArg X (funext fun a => Fin.ext ?_)
  match a with
  | ⟨0, _⟩ => show o + 1 * i.val = o + i.val; omega
  | ⟨1, _⟩ => show 0 + 1 * j.val = j.val; omega

/-- Slabs `o … o + n - 1` of an `[m, a, b]` array: local `(u, i, j)` reads the array at `(o + u, i, j)`. -/
theorem ld_slabs3 {m n a b : ℕ} (X : (⟨3, ![m, a, b]⟩ : Shape).Idx → Val e) (o : ℕ)
    (inb : ∀ c, (![o, 0, 0] : Fin 3 → ℕ) c + (![n, a, b] : Fin 3 → ℕ) c ≤ (⟨3, ![m, a, b]⟩ : Shape).size c)
    (u : Fin n) (i : Fin a) (j : Fin b) (hlt : o + u.val < m) :
    View.ld X (Rect.unit ![o, 0, 0] ![n, a, b] inb) (ix3 u i j) = X (ix3 ⟨o + u.val, hlt⟩ i j) := by
  refine congrArg X (funext fun c => Fin.ext ?_)
  match c with
  | ⟨0, _⟩ => show o + 1 * u.val = o + u.val; omega
  | ⟨1, _⟩ => show 0 + 1 * i.val = i.val; omega
  | ⟨2, _⟩ => show 0 + 1 * j.val = j.val; omega

/-- Slabs `o … o + n - 1` of an `[m, k, a, b]` array with the other axes whole: local `(u, v, i, j)` reads `(o + u, v, i, j)`. -/
theorem ld_slabs4 {m n k a b : ℕ} (X : (⟨4, ![m, k, a, b]⟩ : Shape).Idx → Val e) (o : ℕ)
    (inb : ∀ c, (![o, 0, 0, 0] : Fin 4 → ℕ) c + (![n, k, a, b] : Fin 4 → ℕ) c ≤ (⟨4, ![m, k, a, b]⟩ : Shape).size c)
    (u : Fin n) (v : Fin k) (i : Fin a) (j : Fin b) (hlt : o + u.val < m) :
    View.ld X (Rect.unit ![o, 0, 0, 0] ![n, k, a, b] inb) (ix4 u v i j) = X (ix4 ⟨o + u.val, hlt⟩ v i j) := by
  refine congrArg X (funext fun c => Fin.ext ?_)
  match c with
  | ⟨0, _⟩ => show o + 1 * u.val = o + u.val; omega
  | ⟨1, _⟩ => show 0 + 1 * v.val = v.val; omega
  | ⟨2, _⟩ => show 0 + 1 * i.val = i.val; omega
  | ⟨3, _⟩ => show 0 + 1 * j.val = j.val; omega

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.LibSlabs

end
-- ==== Proof.KernelBlock.lean ====
/-
  The result block at one grid point, entry by entry, from what the loaded blocks hold.

  If the first operand's block holds the three adjacency matrices `A h`, the second the features, the third the
  transposed layer weights, the fourth the layer biases, the fifth the transposed output weights and the sixth the output
  bias, then entry `(s, e)` of the result block is `GraphSpec.out` at `(s, e)`: each slab the body loads is the matching
  matrix (a load of slab `k` reads the block at leading coordinate `k`; rows `512 k …` of the output weights are column
  block `k`).
-/
import proofs.«118928_j90305982366173_2_alg».proof.Proof.KernelEntries
import proofs.«118928_j90305982366173_2_alg».proof.Proof.LibSlabs

noncomputable section

namespace Cert.KernelBlock

open Cert.KernelIdeal Cert.KernelIdeal.Gen Cert.KernelBody Cert.KernelEntries Cert.GraphSpec Cert.LibSlabs Idealize.ShloMosaic Idealize.ShloMosaic.ValueIdx

/-- Entry `(s, e)` of the result block is the network's output on the matrices the blocks hold. -/
theorem block_value (x0 : Vec Ideal S3x1x512x512 .f32) (x1 : Vec Ideal S1x512x512 .f32) (x2 : Vec Ideal S6x512x512 .bf16)
    (x3 : Vec Ideal S6x512 .f32) (x4 : Vec Ideal S3072x512 .bf16) (x5 : Vec Ideal S512 .f32)
    (A : Fin 3 → Mat) (Xm : Mat) (W : Fin 6 → Mat) (β : Fin 6 → Fin 512 → EReal)
    (Wo : Fin 512 → Fin 3072 → EReal) (βo : Fin 512 → EReal)
    (h0 : ∀ (h : Fin 3) (s t : Fin 512), x0 (ix4 h (0 : Fin 1) s t) = A h s t)
    (h1 : ∀ s d : Fin 512, x1 (ix3 (0 : Fin 1) s d) = Xm s d)
    (h2 : ∀ (k : Fin 6) (d e : Fin 512), x2 (ix3 k d e) = W k e d)
    (h3 : ∀ (k : Fin 6) (e : Fin 512), x3 (ix2 k e) = β k e)
    (h4 : ∀ (f : Fin 3072) (e : Fin 512), x4 (ix2 f e) = Wo e f)
    (h5 : ∀ e : Fin 512, x5 (ix1 e) = βo e) (s e : Fin 512) :
    body
      (shapeCast S512x512 (View.ld x0 (Rect.unit ![0, 0, 0, 0] S1x1x512x512.size inb_S3x1x512x512_S1x1x512x512_0_0_0_0)) shapeCasts_S1x1x512x512_S512x512)
      (shapeCast S512x512 (View.ld x0 (Rect.unit ![1, 0, 0, 0] S1x1x512x512.size inb_S3x1x512x512_S1x1x512x512_1_0_0_0)) shapeCasts_S1x1x512x512_S512x512)
      (shapeCast S512x512 (View.ld x0 (Rect.unit ![2, 0, 0, 0] S1x1x512x512.size inb_S3x1x512x512_S1x1x512x512_2_0_0_0)) shapeCasts_S1x1x512x512_S512x512)
      (shapeCast S512x512 x1 shapeCasts_S1x512x512_S512x512)
      (View.ld x2 (Rect.unit ![0, 0, 0] S1x512x512.size inb_S6x512x512_S1x512x512_0_0_0)) (View.ld x2 (Rect.unit ![1, 0, 0] S1x512x512.size inb_S6x512x512_S1x512x512_1_0_0)) (View.ld x2 (Rect.unit ![2, 0, 0] S1x512x512.size inb_S6x512x512_S1x512x512_2_0_0)) (View.ld x2 (Rect.unit ![3, 0, 0] S1x512x512.size inb_S6x512x512_S1x512x512_3_0_0)) (View.ld x2 (Rect.unit ![4, 0, 0] S1x512x512.size inb_S6x512x512_S1x512x512_4_0_0)) (View.ld x2 (Rect.unit ![5, 0, 0] S1x512x512.size inb_S6x512x512_S1x512x512_5_0_0))
      (View.ld x3 (Rect.unit ![0, 0] S1x512.size inb_S6x512_S1x512_0_0)) (View.ld x3 (Rect.unit ![1, 0] S1x512.size inb_S6x512_S1x512_1_0)) (View.ld x3 (Rect.unit ![2, 0] S1x512.size inb_S6x512_S1x512_2_0)) (View.ld x3 (Rect.unit ![3, 0] S1x512.size inb_S6x512_S1x512_3_0)) (View.ld x3 (Rect.unit ![4, 0] S1x512.size inb_S6x512_S1x512_4_0)) (View.ld x3 (Rect.unit ![5, 0] S1x512.size inb_S6x512_S1x512_5_0))
      (View.ld x4 (Rect.unit ![0, 0] S512x512.size inb_S3072x512_S512x512_0_0)) (View.ld x4 (Rect.unit ![512, 0] S512x512.size inb_S3072x512_S512x512_512_0)) (View.ld x4 (Rect.unit ![1024, 0] S512x512.size inb_S3072x512_S512x512_1024_0)) (View.ld x4 (Rect.unit ![1536, 0] S512x512.size inb_S3072x512_S512x512_1536_0)) (View.ld x4 (Rect.unit ![2048, 0] S512x512.size inb_S3072x512_S512x512_2048_0)) (View.ld x4 (Rect.unit ![2560, 0] S512x512.size inb_S3072x512_S512x512_2560_0))
      x5 (ix3 (0 : Fin 1) s e)
      = out A Xm W β Wo βo s e :=
  body_apply _ _ _ _ _ _ _ _ _ _ _ _ _ _ _ _ _ _ _ _ _ _ _ A Xm W β Wo βo
    (fun s t => (shapeCast_11ab_ab_apply _ _ s t).trans ((ld_slabs4 x0 0 _ (0 : Fin 1) (0 : Fin 1) s t (by decide)).trans (h0 0 s t)))
    (fun s t => (shapeCast_11ab_ab_apply _ _ s t).trans ((ld_slabs4 x0 1 _ (0 : Fin 1) (0 : Fin 1) s t (by decide)).trans (h0 1 s t)))
    (fun s t => (shapeCast_11ab_ab_apply _ _ s t).trans ((ld_slabs4 x0 2 _ (0 : Fin 1) (0 : Fin 1) s t (by decide)).trans (h0 2 s t)))
    (fun s d => (shapeCast_1ab_ab_apply x1 _ s d).trans (h1 s d))
    (fun d e => (ld_slabs3 x2 0 _ (0 : Fin 1) d e (by decide)).trans (h2 0 d e))
    (fun d e => (ld_slabs3 x2 1 _ (0 : Fin 1) d e (by decide)).trans (h2 1 d e))
    (fun d e => (ld_slabs3 x2 2 _ (0 : Fin 1) d e (by decide)).trans (h2 2 d e))
    (fun d e => (ld_slabs3 x2 3 _ (0 : Fin 1) d e (by decide)).trans (h2 3 d e))
    (fun d e => (ld_slabs3 x2 4 _ (0 : Fin 1) d e (by decide)).trans (h2 4 d e))
    (fun d e => (ld_slabs3 x2 5 _ (0 : Fin 1) d e (by decide)).trans (h2 5 d e))
    (fun e => (ld_rows2 x3 0 _ (0 : Fin 1) e (by decide)).trans (h3 0 e))
    (fun e => (ld_rows2 x3 1 _ (0 : Fin 1) e (by decide)).trans (h3 1 e))
    (fun e => (ld_rows2 x3 2 _ (0 : Fin 1) e (by decide)).trans (h3 2 e))
    (fun e => (ld_rows2 x3 3 _ (0 : Fin 1) e (by decide)).trans (h3 3 e))
    (fun e => (ld_rows2 x3 4 _ (0 : Fin 1) e (by decide)).trans (h3 4 e))
    (fun e => (ld_rows2 x3 5 _ (0 : Fin 1) e (by decide)).trans (h3 5 e))
    (fun d e => (ld_rows2 x4 0 _ d e (by have := d.isLt; omega)).trans (h4 _ e))
    (fun d e => (ld_rows2 x4 512 _ d e (by have := d.isLt; omega)).trans (h4 _ e))
    (fun d e => (ld_rows2 x4 1024 _ d e (by have := d.isLt; omega)).trans (h4 _ e))
    (fun d e => (ld_rows2 x4 1536 _ d e (by have := d.isLt; omega)).trans (h4 _ e))
    (fun d e => (ld_rows2 x4 2048 _ d e (by have := d.isLt; omega)).trans (h4 _ e))
    (fun d e => (ld_rows2 x4 2560 _ d e (by have := d.isLt; omega)).trans (h4 _ e))
    h5 s e

end Cert.KernelBlock

end
-- ==== Proof.HostWeights.lean ====
/-
  The two weight arrays the kernel's region finds were written by host operations before it: the stack of six
  layer-weight matrices with each matrix transposed, and the output-weight matrix transposed, both then narrowed to
  the 16-bit format (at the ideal values a change of format is the identity). Read at an index, entry `(k, d, e)` of
  the first is entry `(k, e, d)` of the weight argument, and entry `(f, e)` of the second is entry `(e, f)` of the
  output-weight argument.
-/
import proofs.«118928_j90305982366173_2_alg».proof.Proof.Gen.KernelIdeal.Frame
import Idealize.ShloMosaic.Lib.StableHlo.Run
import Idealize.ShloMosaic.Lib.ValueLayout
import Idealize.ShloMosaic.Lib.ValueIdx

noncomputable section

namespace Cert.HostWeights

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The layer weights the region finds: each of the six matrices transposed, in the narrower format. -/
theorem weights_eq :
    (V m c main_v1 : S6x512x512.Idx → EReal)
      = (truncf (F := Ideal) .bf16 (transpose S6x512x512 [0, 2, 1]
          (m ((c : Thread nD τ).loc main_arg4) : FVec Ideal S6x512x512 .f32) transposes_S6x512x512_S6x512x512_0_2_1)
          bitsLt_bf16_f32 : S6x512x512.Idx → EReal) := by
  dsimp only [Gen.V, Gen.hostOps0]; after_results

/-- Entry `(k, d, e)` of the transposed weights is entry `(k, e, d)` of the weight argument. -/
theorem weights_entry (k : Fin 6) (d e : Fin 512) :
    (V m c main_v1 : S6x512x512.Idx → EReal) (ValueIdx.ix3 k d e)
      = m ((c : Thread nD τ).loc main_arg4) (ValueIdx.ix3 k e d) := by
  rw [weights_eq, ValueIdx.truncf_apply]
  exact transpose_ix3_021_apply _ _ k d e

/-- The output weights the region finds: the matrix transposed, in the narrower format. -/
theorem outw_eq :
    (V m c main_v3 : S3072x512.Idx → EReal)
      = (truncf (F := Ideal) .bf16 (transpose S3072x512 [1, 0]
          (m ((c : Thread nD τ).loc main_arg6) : FVec Ideal S512x3072 .f32) transposes_S512x3072_S3072x512_1_0)
          bitsLt_bf16_f32 : S3072x512.Idx → EReal) := by
  dsimp only [Gen.V, Gen.hostOps0]; after_results

/-- Entry `(f, e)` of the transposed output weights is entry `(e, f)` of the output-weight argument. -/
theorem outw_entry (f : Fin 3072) (e : Fin 512) :
    (V m c main_v3 : S3072x512.Idx → EReal) (ValueIdx.ix2 f e)
      = m ((c : Thread nD τ).loc main_arg6) (ValueIdx.ix2 e f) := by
  rw [outw_eq, ValueIdx.truncf_apply]
  exact transpose_ix2_apply _ _ f e

end Cert.HostWeights

end
-- ==== Proof.BlockReads.lean ====
/-
  What the kernel's region reads and where it writes, index by index.

  The region runs over 16 grid points, one per batch element. At grid point `t` the adjacency window holds all three
  heads' matrices of batch element `t`, the feature window that element's input features, and the four parameter
  windows (layer weights, layer biases, output weights, output bias) the whole parameter arrays; the two weight arrays
  were transposed by the host before the region, so their entries are the arguments' with the last two coordinates
  swapped. The output window's block at `t` is row `t` of the result along the batch axis, and these 16 blocks fill
  the result. Each statement reads a block at block coordinates: an element at block coordinates `j` sits in the
  array at block index × block size + `j`, axis by axis, and the block indices are decided once over the grid.
-/
import proofs.«118928_j90305982366173_2_alg».proof.Proof.Gen.KernelIdeal.Value
import proofs.«118928_j90305982366173_2_alg».proof.Proof.HostWeights
import Idealize.ShloMosaic.Lib.Pipeline.Value
import Idealize.ShloMosaic.Lib.ValueIdx

noncomputable section

namespace Cert.BlockReads

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-- The batch element grid point `t` works on: the grid has one point per batch element. -/
def batch (t : Fin cfg0.N) : Fin 16 := ⟨t.val, by have h := t.isLt; have e : cfg0.N = 16 := N_0; omega⟩

/-- The windows' block indices at grid point `t`, decided over the grid: the adjacency, feature and output windows
    move along the batch axis with `t`; the four parameter windows stay at the origin. -/
theorem idx_facts : ∀ t : Fin cfg0.N,
    (win0_0.index t (0 : Fin 4) = 0 ∧ win0_0.index t (1 : Fin 4) = t.val ∧ win0_0.index t (2 : Fin 4) = 0 ∧ win0_0.index t (3 : Fin 4) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 1) = 0)
    ∧ (win0_6.index t (0 : Fin 3) = t.val ∧ win0_6.index t (1 : Fin 3) = 0 ∧ win0_6.index t (2 : Fin 3) = 0) :=
  (by decide +kernel : ∀ t : Fin grid0.N, _)

/-! ## The input blocks at grid point `t`, read at an index of the block

A block's element at block coordinates `j` sits in the array at block index × block size + `j`, axis by axis. -/

/-- The adjacency block: all three heads' matrices of batch element `t`. -/
theorem adj_block (t : Fin cfg0.N) (h : Fin 3) (u : Fin 1) (s r : Fin 512) :
    iblk m c 0 t (ix4 h u s r) = m ((c : Thread nD τ).loc main_arg0) (ix4 h (batch t) s r) := by
  show V m c main_arg0 (((cfg0.win 0).blk t).view.emb (ix4 h u s r)) = _
  rw [V_main_arg0]
  refine congrArg _ (funext fun a => Fin.ext ?_)
  obtain ⟨⟨e0, e1, e2, e3⟩, -⟩ := idx_facts t
  have hu := u.isLt
  match a with
  | ⟨0, _⟩ => show win0_0.index t (0 : Fin 4) * 3 + 1 * h.val = h.val; omega
  | ⟨1, _⟩ => show win0_0.index t (1 : Fin 4) * 1 + 1 * u.val = t.val; omega
  | ⟨2, _⟩ => show win0_0.index t (2 : Fin 4) * 512 + 1 * s.val = s.val; omega
  | ⟨3, _⟩ => show win0_0.index t (3 : Fin 4) * 512 + 1 * r.val = r.val; omega

/-- The feature block: the input features of batch element `t`. -/
theorem feat_block (t : Fin cfg0.N) (u : Fin 1) (s d : Fin 512) :
    iblk m c 1 t (ix3 u s d) = m ((c : Thread nD τ).loc main_arg1) (ix3 (batch t) s d) := by
  show V m c main_arg1 (((cfg0.win 1).blk t).view.emb (ix3 u s d)) = _
  rw [V_main_arg1]
  refine congrArg _ (funext fun a => Fin.ext ?_)
  obtain ⟨-, ⟨e0, e1, e2⟩, -⟩ := idx_facts t
  have hu := u.isLt
  match a with
  | ⟨0, _⟩ => show win0_1.index t (0 : Fin 3) * 1 + 1 * u.val = t.val; omega
  | ⟨1, _⟩ => show win0_1.index t (1 : Fin 3) * 512 + 1 * s.val = s.val; omega
  | ⟨2, _⟩ => show win0_1.index t (2 : Fin 3) * 512 + 1 * d.val = d.val; omega

/-- The layer weights, staged whole: the transposed stack, so entry `(k, d, e)` is the argument's `(k, e, d)`. -/
theorem wgt_block (t : Fin cfg0.N) (k : Fin 6) (d e : Fin 512) :
    iblk m c 2 t (ix3 k d e) = m ((c : Thread nD τ).loc main_arg4) (ix3 k e d) := by
  have he : ((cfg0.win 2).blk t).view.emb (ix3 k d e) = ix3 k d e := by
    refine funext fun a => Fin.ext ?_
    obtain ⟨-, -, ⟨e0, e1, e2⟩, -⟩ := idx_facts t
    match a with
    | ⟨0, _⟩ => show win0_2.index t (0 : Fin 3) * 6 + 1 * k.val = k.val; omega
    | ⟨1, _⟩ => show win0_2.index t (1 : Fin 3) * 512 + 1 * d.val = d.val; omega
    | ⟨2, _⟩ => show win0_2.index t (2 : Fin 3) * 512 + 1 * e.val = e.val; omega
  show V m c main_v1 (((cfg0.win 2).blk t).view.emb (ix3 k d e)) = _
  rw [he]
  exact Cert.HostWeights.weights_entry m c k d e

/-- The layer biases, staged whole. -/
theorem bias_block (t : Fin cfg0.N) (k : Fin 6) (e : Fin 512) :
    iblk m c 3 t (ix2 k e) = m ((c : Thread nD τ).loc main_arg5) (ix2 k e) := by
  show V m c main_arg5 (((cfg0.win 3).blk t).view.emb (ix2 k e)) = _
  rw [V_main_arg5]
  refine congrArg _ (funext fun a => Fin.ext ?_)
  obtain ⟨-, -, -, ⟨e0, e1⟩, -⟩ := idx_facts t
  match a with
  | ⟨0, _⟩ => show win0_3.index t (0 : Fin 2) * 6 + 1 * k.val = k.val; omega
  | ⟨1, _⟩ => show win0_3.index t (1 : Fin 2) * 512 + 1 * e.val = e.val; omega

/-- The output weights, staged whole: the transposed matrix, so entry `(f, e)` is the argument's `(e, f)`. -/
theorem outw_block (t : Fin cfg0.N) (f : Fin 3072) (e : Fin 512) :
    iblk m c 4 t (ix2 f e) = m ((c : Thread nD τ).loc main_arg6) (ix2 e f) := by
  have he : ((cfg0.win 4).blk t).view.emb (ix2 f e) = ix2 f e := by
    refine funext fun a => Fin.ext ?_
    obtain ⟨-, -, -, -, ⟨e0, e1⟩, -⟩ := idx_facts t
    match a with
    | ⟨0, _⟩ => show win0_4.index t (0 : Fin 2) * 3072 + 1 * f.val = f.val; omega
    | ⟨1, _⟩ => show win0_4.index t (1 : Fin 2) * 512 + 1 * e.val = e.val; omega
  show V m c main_v3 (((cfg0.win 4).blk t).view.emb (ix2 f e)) = _
  rw [he]
  exact Cert.HostWeights.outw_entry m c f e

/-- The output bias, staged whole. -/
theorem outb_block (t : Fin cfg0.N) (e : Fin 512) :
    iblk m c 5 t (ix1 e) = m ((c : Thread nD τ).loc main_arg7) (ix1 e) := by
  show V m c main_arg7 (((cfg0.win 5).blk t).view.emb (ix1 e)) = _
  rw [V_main_arg7]
  refine congrArg _ (funext fun a => Fin.ext ?_)
  obtain ⟨-, -, -, -, -, e0, -⟩ := idx_facts t
  match a with
  | ⟨0, _⟩ => show win0_5.index t (0 : Fin 1) * 512 + 1 * e.val = e.val; omega

/-! ## The output blocks: where they sit, and that they fill the array -/

/-- Element `(u, s, e)` of grid point `t`'s output block is the array's `(batch t, s, e)`. -/
theorem out_index (t : Fin cfg0.N) (u : Fin 1) (s e : Fin 512) :
    ((cfg0.win 6).blk t).view.emb (ix3 u s e) = ix3 (batch t) s e := by
  refine funext fun a => Fin.ext ?_
  obtain ⟨-, -, -, -, -, -, ⟨e0, e1, e2⟩⟩ := idx_facts t
  have hu := u.isLt
  match a with
  | ⟨0, _⟩ => show win0_6.index t (0 : Fin 3) * 1 + 1 * u.val = t.val; omega
  | ⟨1, _⟩ => show win0_6.index t (1 : Fin 3) * 512 + 1 * s.val = s.val; omega
  | ⟨2, _⟩ => show win0_6.index t (2 : Fin 3) * 512 + 1 * e.val = e.val; omega

/-- An index of the output array is in grid point `t`'s block iff each coordinate is in the block's range. -/
theorem mem_out_blk (t : Fin cfg0.N) (i : S16x512x512.Idx) :
    i ∈ ((cfg0.win 6).blk t).view.set ↔ ∀ a : Fin 3, win0_6.index t a * S1x512x512.size a ≤ (i a).val
      ∧ (i a).val < win0_6.index t a * S1x512x512.size a + S1x512x512.size a := by
  show i ∈ ((View.whole main_v4).slice (win0_6.rect t)).set ↔ _
  rw [View.set_slice_whole, Rect.mem_set_unit]
  exact Iff.rfl

/-- Every index of the output array is in the block of the grid point of its batch element, which is written back. -/
theorem cover (i : S16x512x512.Idx) :
    ∃ t : Fin cfg0.N, (cfg0.win 6).flush t = true ∧ i ∈ ((cfg0.win 6).blk t).view.set := by
  have hi0 : (i 0).val < 16 := (i 0).isLt
  have hi1 : (i 1).val < 512 := (i 1).isLt
  have hi2 : (i 2).val < 512 := (i 2).isLt
  have hlt : (i 0).val < cfg0.N := Nat.lt_of_lt_of_eq hi0 N_0.symm
  obtain ⟨t, ht⟩ : ∃ t : Fin cfg0.N, t.val = (i 0).val := ⟨⟨(i 0).val, hlt⟩, rfl⟩
  refine ⟨t, flush0_6 t, ?_⟩
  rw [mem_out_blk]
  obtain ⟨-, -, -, -, -, -, ⟨e0, e1, e2⟩⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

end Cert.BlockReads

end
-- ==== Proof.KernelValue.lean ====
/-
  The kernel's result array after the run, as one function of the argument arrays.

  Grid point `t` handles batch element `t`. Its input blocks are: the three adjacency matrices of that batch element,
  its features, and — whole, at every point — the layer weights as the host transposed them, the layer biases, the
  output weights as the host transposed them, and the output bias. So the block the point writes back is the network's
  output for batch element `t` (`KernelBlock.block_value`), which is block `t` of `GraphSpec.G` of the argument arrays.
  The sixteen blocks cover the result array, so after the run the array is `GraphSpec.G` of the arguments.
-/
import proofs.«118928_j90305982366173_2_alg».proof.Proof.Gen.KernelIdeal.Value
import proofs.«118928_j90305982366173_2_alg».proof.Proof.KernelBlock
import proofs.«118928_j90305982366173_2_alg».proof.Proof.BlockReads
import Idealize.ShloMosaic.Lib.Pipeline.Value

noncomputable section

namespace Cert.KernelValue

open Cert.KernelIdeal Cert.KernelIdeal.Gen Cert.KernelBody Cert.KernelBlock Cert.GraphSpec Cert.BlockReads
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The result array: the network applied to the argument arrays. -/
abbrev result (c : Dev nD) : Buf (Elt Ideal) ((c : Thread nD τ).loc main_v4) :=
  G (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))

/-- The block the body leaves at point `t`, at local index `y`, is the result array at the block's place for `y`. -/
theorem block_eq (c : Dev nD) (t : Fin cfg0.N) (y : S1x512x512.Idx) :
    body
      (shapeCast S512x512 (View.ld (iblk m c 0 t) (Rect.unit ![0, 0, 0, 0] S1x1x512x512.size inb_S3x1x512x512_S1x1x512x512_0_0_0_0)) shapeCasts_S1x1x512x512_S512x512)
      (shapeCast S512x512 (View.ld (iblk m c 0 t) (Rect.unit ![1, 0, 0, 0] S1x1x512x512.size inb_S3x1x512x512_S1x1x512x512_1_0_0_0)) shapeCasts_S1x1x512x512_S512x512)
      (shapeCast S512x512 (View.ld (iblk m c 0 t) (Rect.unit ![2, 0, 0, 0] S1x1x512x512.size inb_S3x1x512x512_S1x1x512x512_2_0_0_0)) shapeCasts_S1x1x512x512_S512x512)
      (shapeCast S512x512 (iblk m c 1 t) shapeCasts_S1x512x512_S512x512)
      (View.ld (iblk m c 2 t) (Rect.unit ![0, 0, 0] S1x512x512.size inb_S6x512x512_S1x512x512_0_0_0)) (View.ld (iblk m c 2 t) (Rect.unit ![1, 0, 0] S1x512x512.size inb_S6x512x512_S1x512x512_1_0_0)) (View.ld (iblk m c 2 t) (Rect.unit ![2, 0, 0] S1x512x512.size inb_S6x512x512_S1x512x512_2_0_0)) (View.ld (iblk m c 2 t) (Rect.unit ![3, 0, 0] S1x512x512.size inb_S6x512x512_S1x512x512_3_0_0)) (View.ld (iblk m c 2 t) (Rect.unit ![4, 0, 0] S1x512x512.size inb_S6x512x512_S1x512x512_4_0_0)) (View.ld (iblk m c 2 t) (Rect.unit ![5, 0, 0] S1x512x512.size inb_S6x512x512_S1x512x512_5_0_0))
      (View.ld (iblk m c 3 t) (Rect.unit ![0, 0] S1x512.size inb_S6x512_S1x512_0_0)) (View.ld (iblk m c 3 t) (Rect.unit ![1, 0] S1x512.size inb_S6x512_S1x512_1_0)) (View.ld (iblk m c 3 t) (Rect.unit ![2, 0] S1x512.size inb_S6x512_S1x512_2_0)) (View.ld (iblk m c 3 t) (Rect.unit ![3, 0] S1x512.size inb_S6x512_S1x512_3_0)) (View.ld (iblk m c 3 t) (Rect.unit ![4, 0] S1x512.size inb_S6x512_S1x512_4_0)) (View.ld (iblk m c 3 t) (Rect.unit ![5, 0] S1x512.size inb_S6x512_S1x512_5_0))
      (View.ld (iblk m c 4 t) (Rect.unit ![0, 0] S512x512.size inb_S3072x512_S512x512_0_0)) (View.ld (iblk m c 4 t) (Rect.unit ![512, 0] S512x512.size inb_S3072x512_S512x512_512_0)) (View.ld (iblk m c 4 t) (Rect.unit ![1024, 0] S512x512.size inb_S3072x512_S512x512_1024_0)) (View.ld (iblk m c 4 t) (Rect.unit ![1536, 0] S512x512.size inb_S3072x512_S512x512_1536_0)) (View.ld (iblk m c 4 t) (Rect.unit ![2048, 0] S512x512.size inb_S3072x512_S512x512_2048_0)) (View.ld (iblk m c 4 t) (Rect.unit ![2560, 0] S512x512.size inb_S3072x512_S512x512_2560_0))
      (iblk m c 5 t) y
      = result m c (((cfg0.win 6).blk t).view.emb y) := by
  obtain ⟨u, s, e, rfl⟩ : ∃ (u : Fin 1) (s e : Fin 512), y = ix3 u s e := ⟨y 0, y 1, y 2, eq_ix3 y⟩
  obtain rfl : u = 0 := Subsingleton.elim _ _
  rw [out_index t 0 s e]
  exact block_value (iblk m c 0 t) (iblk m c 1 t) (iblk m c 2 t) (iblk m c 3 t) (iblk m c 4 t) (iblk m c 5 t)
    (fun h s r => (m ((c : Thread nD τ).loc main_arg0)) (ix4 h (batch t) s r)) (fun s d => (m ((c : Thread nD τ).loc main_arg1)) (ix3 (batch t) s d))
    (fun k e d => (m ((c : Thread nD τ).loc main_arg4)) (ix3 k e d)) (fun k e => (m ((c : Thread nD τ).loc main_arg5)) (ix2 k e))
    (fun e f => (m ((c : Thread nD τ).loc main_arg6)) (ix2 e f)) (fun e => (m ((c : Thread nD τ).loc main_arg7)) (ix1 e))
    (fun h s r => adj_block m c t h 0 s r) (fun s d => feat_block m c t 0 s d) (fun k d e => wgt_block m c t k d e)
    (fun k e => bias_block m c t k e) (fun f e => outw_block m c t f e) (fun e => outb_block m c t e) s e

/-- What point `t` writes back is block `t` of the result array. -/
theorem flushed_eq (c : Dev nD) (t : Fin cfg0.N) :
    (dats m 0 c).flushed 6 t = ((cfg0.win 6).blk t).view.read (Elt Ideal) (result m c) := by
  rw [Cert.KernelIdeal.Value.flushed6_A, found_eq_body]
  funext j
  exact block_eq m c t j

/-- After the run the result array is the network of the argument arrays: the sixteen blocks cover it. -/
theorem final (c : Dev nD) : (dats m 0 c).arrAt 6 cfg0.N = result m c :=
  (dats m 0 c).arrAt_eq_of_cover 6 (result m c) (fun t _ => flushed_eq m c t) (cover)

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelValue

end
-- ==== Proof.RefLayers.lean ====
/-
  The host program's graph network, operation group by operation group, read at an index.

  The reference computes, for each of three adjacency arrays `A` (batch × node × node), a normaliser column
  `den A` (row sums plus one) and two graph layers from the input features `X`; a layer sends features `P` to

      max ( ( (A · P + P) · Wᵀ + 2 β ) / den A , 0 ).

  The six hidden states are joined along the feature axis (in pairs, then the three pairs), multiplied by the
  transposed output weights, and the output bias and the input features are added.

  Here each group is a function of its operand arrays (`hostDen`, `hostLayer`, `hostCat2`, `hostCat3`, `hostCat6`,
  `hostOut`, `hostNet`), written with the program's own operations, and is read at batch element `b`, node `s`,
  feature `e`: a product is the sum over its contracted axis, a broadcast reads its operand at the kept coordinates,
  a row sum is the finite sum (the zero initial value dropped), a concatenation reads the piece that holds the column.
  `hostNet_apply` assembles them: the network at `(b, s, e)` is the specification's `out` on the matrices of batch
  element `b`; the sum over the 3072 joined columns is split into its six blocks by `sum_columns`.
-/
import proofs.«118928_j90305982366173_2_alg».proof.Proof.Gen.ReferenceIdeal.Read
import proofs.«118928_j90305982366173_2_alg».proof.Proof.GraphSpec
import Idealize.ShloMosaic.Lib.Pipeline.Value
import Idealize.ShloMosaic.Lib.ValueIdx
import Idealize.ShloMosaic.PureOps.Ideal.Laws

noncomputable section

namespace Cert.RefLayers

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The three products read at an index -/

/-- The batched product: row `s` of `A_b` against column `d` of `P_b`. -/
theorem dotA_apply (A P : FVec Ideal S16x512x512 .f32) (b : Fin 16) (s d : Fin 512) :
    Host.dotGeneral (F := Ideal) dot_S16x512x512_S16x512x512_S16x512x512_2_1_1_2_0_0 none A P (ix3 b s d)
      = ∑ t : Fin 512, A (ix3 b s t) * P (ix3 b t d) := by
  simp only [Host.dotGeneral]
  rw [Ideal.dotGeneral_apply, ← Equiv.sum_comp (ValueIdx.contrEquiv1 dot_S16x512x512_S16x512x512_S16x512x512_2_1_1_2_0_0 512 rfl rfl).symm]
  refine Finset.sum_congr rfl fun k _ => ?_
  have hk := ValueIdx.contrEquiv1_symm_val dot_S16x512x512_S16x512x512_S16x512x512_2_1_1_2_0_0 512 rfl rfl k
  have el : dot_S16x512x512_S16x512x512_S16x512x512_2_1_1_2_0_0.lhsIdx (ix3 b s d) ((ValueIdx.contrEquiv1 dot_S16x512x512_S16x512x512_S16x512x512_2_1_1_2_0_0 512 rfl rfl).symm k) = ix3 b s k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S16x512x512_S16x512x512_S16x512x512_2_1_1_2_0_0.rhsIdx (ix3 b s d) ((ValueIdx.contrEquiv1 dot_S16x512x512_S16x512x512_S16x512x512_2_1_1_2_0_0 512 rfl rfl).symm k) = ix3 b k d := funext fun a => Fin.ext (by
    match a with
    | ⟨0, _⟩ => exact rhs_main_v6_0 _ _
    | ⟨1, _⟩ => exact (rhs_main_v6_1 _ _).trans hk
    | ⟨2, _⟩ => exact rhs_main_v6_2 _ _)
  rw [el, er]

/-- The product with a transposed weight matrix: row `s` of `Q_b` against row `e` of `W`. -/
theorem dotW_apply (Q : FVec Ideal S16x512x512 .f32) (W : FVec Ideal S512x512 .f32) (b : Fin 16) (s e : Fin 512) :
    Host.dotGeneral (F := Ideal) dot_S16x512x512_S512x512_S16x512x512_2_1_01_0_n_n none Q W (ix3 b s e)
      = ∑ d : Fin 512, Q (ix3 b s d) * W (ix2 e d) := by
  simp only [Host.dotGeneral]
  rw [Ideal.dotGeneral_apply, ← Equiv.sum_comp (ValueIdx.contrEquiv1 dot_S16x512x512_S512x512_S16x512x512_2_1_01_0_n_n 512 rfl rfl).symm]
  refine Finset.sum_congr rfl fun k _ => ?_
  have hk := ValueIdx.contrEquiv1_symm_val dot_S16x512x512_S512x512_S16x512x512_2_1_01_0_n_n 512 rfl rfl k
  have el : dot_S16x512x512_S512x512_S16x512x512_2_1_01_0_n_n.lhsIdx (ix3 b s e) ((ValueIdx.contrEquiv1 dot_S16x512x512_S512x512_S16x512x512_2_1_01_0_n_n 512 rfl rfl).symm k) = ix3 b s k := funext fun a => Fin.ext (by
    match a with
    | ⟨0, _⟩ => exact lhs_main_v10_0 _ _
    | ⟨1, _⟩ => exact lhs_main_v10_1 _ _
    | ⟨2, _⟩ => exact (lhs_main_v10_2 _ _).trans hk)
  have er : dot_S16x512x512_S512x512_S16x512x512_2_1_01_0_n_n.rhsIdx (ix3 b s e) ((ValueIdx.contrEquiv1 dot_S16x512x512_S512x512_S16x512x512_2_1_01_0_n_n 512 rfl rfl).symm k) = ix2 e k := funext fun a => Fin.ext (by
    match a with
    | ⟨0, _⟩ => exact rhs_main_v10_0 _ _
    | ⟨1, _⟩ => exact (rhs_main_v10_1 _ _).trans hk)
  rw [el, er]

/-- The output projection: row `s` of the 3072 concatenated features against row `e` of the output weights. -/
theorem dotO_apply (Hc : FVec Ideal S16x512x3072 .f32) (Wo : FVec Ideal S512x3072 .f32) (b : Fin 16) (s e : Fin 512) :
    Host.dotGeneral (F := Ideal) dot_S16x512x3072_S512x3072_S16x512x512_2_1_01_0_n_n none Hc Wo (ix3 b s e)
      = ∑ f : Fin 3072, Hc (ix3 b s f) * Wo (ix2 e f) := by
  simp only [Host.dotGeneral]
  rw [Ideal.dotGeneral_apply, ← Equiv.sum_comp (ValueIdx.contrEquiv1 dot_S16x512x3072_S512x3072_S16x512x512_2_1_01_0_n_n 3072 rfl rfl).symm]
  refine Finset.sum_congr rfl fun k _ => ?_
  have hk := ValueIdx.contrEquiv1_symm_val dot_S16x512x3072_S512x3072_S16x512x512_2_1_01_0_n_n 3072 rfl rfl k
  have el : dot_S16x512x3072_S512x3072_S16x512x512_2_1_01_0_n_n.lhsIdx (ix3 b s e) ((ValueIdx.contrEquiv1 dot_S16x512x3072_S512x3072_S16x512x512_2_1_01_0_n_n 3072 rfl rfl).symm k) = ix3 b s k := funext fun a => Fin.ext (by
    match a with
    | ⟨0, _⟩ => exact lhs_main_v112_0 _ _
    | ⟨1, _⟩ => exact lhs_main_v112_1 _ _
    | ⟨2, _⟩ => exact (lhs_main_v112_2 _ _).trans hk)
  have er : dot_S16x512x3072_S512x3072_S16x512x512_2_1_01_0_n_n.rhsIdx (ix3 b s e) ((ValueIdx.contrEquiv1 dot_S16x512x3072_S512x3072_S16x512x512_2_1_01_0_n_n 3072 rfl rfl).symm k) = ix2 e k := funext fun a => Fin.ext (by
    match a with
    | ⟨0, _⟩ => exact rhs_main_v112_0 _ _
    | ⟨1, _⟩ => exact (rhs_main_v112_1 _ _).trans hk)
  rw [el, er]

/-! ## Broadcasts and the row sum read at an index -/

/-- A scalar constant broadcast to any shape reads its word everywhere. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  (broadcastInDim_apply _ h _ i (fun a => a.elim0) (fun a => a.elim0)).trans rfl

/-- A feature vector broadcast over batch and node reads its entry at the feature. -/
theorem bcastFeature_apply (v : FVec Ideal S512 .f32) (b : Fin 16) (s e : Fin 512) :
    broadcastInDim S16x512x512 ![0, 1, 2] bcast_S1x1x512_S16x512x512_0_1_2
      (broadcastInDim S1x1x512 ![2] bcast_S512_S1x1x512_2 v) (ix3 b s e) = v (ix1 e) := by
  rw [broadcastInDim_apply _ bcast_S1x1x512_S16x512x512_0_1_2 _ (ix3 b s e) (ix3 (0 : Fin 1) (0 : Fin 1) e) (fun a => match a with
    | ⟨0, _⟩ => by show (0 : Nat) = if (1 : Nat) = 1 then 0 else b.val; rw [if_pos rfl]
    | ⟨1, _⟩ => by show (0 : Nat) = if (1 : Nat) = 1 then 0 else s.val; rw [if_pos rfl]
    | ⟨2, _⟩ => by show e.val = if (512 : Nat) = 1 then 0 else e.val; rw [if_neg (by decide)])]
  exact broadcastInDim_apply _ bcast_S512_S1x1x512_2 v (ix3 (0 : Fin 1) (0 : Fin 1) e) (ix1 e) (fun a => match a with
    | ⟨0, _⟩ => by show e.val = if (512 : Nat) = 1 then 0 else e.val; rw [if_neg (by decide)])

/-- A per-node column broadcast over the features reads its entry at the node. -/
theorem bcastNode_apply (v : FVec Ideal S16x512x1 .f32) (b : Fin 16) (s e : Fin 512) :
    broadcastInDim S16x512x512 ![0, 1, 2] bcast_S16x512x1_S16x512x512_0_1_2 v (ix3 b s e) = v (ix3 b s (0 : Fin 1)) :=
  broadcastInDim_apply _ bcast_S16x512x1_S16x512x512_0_1_2 v (ix3 b s e) (ix3 b s (0 : Fin 1)) (fun a => match a with
    | ⟨0, _⟩ => by show b.val = if (16 : Nat) = 1 then 0 else b.val; rw [if_neg (by decide)]
    | ⟨1, _⟩ => by show s.val = if (512 : Nat) = 1 then 0 else s.val; rw [if_neg (by decide)]
    | ⟨2, _⟩ => by show (0 : Nat) = if (1 : Nat) = 1 then 0 else e.val; rw [if_pos rfl])

/-- The row sums, kept as a column, read at a node. -/
theorem rowSum_apply (A : FVec Ideal S16x512x512 .f32) (b : Fin 16) (s : Fin 512) :
    broadcastInDim S16x512x1 ![0, 1] bcast_S16x512_S16x512x1_0_1
      (Host.reduceAdd (F := Ideal) A (constant (F := Ideal) S_ .f32 0x00000000#32) reducesTo_S16x512x512_S16x512_d2 h_S_) (ix3 b s (0 : Fin 1))
      = ∑ t : Fin 512, A (ix3 b s t) := by
  rw [broadcastInDim_apply _ bcast_S16x512_S16x512x1_0_1 _ (ix3 b s (0 : Fin 1)) (ix2 b s) (fun a => match a with
    | ⟨0, _⟩ => by show b.val = if (16 : Nat) = 1 then 0 else b.val; rw [if_neg (by decide)]
    | ⟨1, _⟩ => by show s.val = if (512 : Nat) = 1 then 0 else s.val; rw [if_neg (by decide)])]
  simp only [Host.reduceAdd, Ideal.hostReduceAdd_def]
  rw [Ideal.hostReduceAdd_single reducesTo_S16x512x512_S16x512_d2 (by decide)]
  refine (congrArg (· + _) ((constant_apply _ _).trans Ideal.ofBits_zero_f32)).trans ?_
  rw [zero_add]
  refine Finset.sum_congr rfl fun k _ => ?_
  exact congrArg A (funext fun a => Fin.ext (by match a with | ⟨0, _⟩ => rfl | ⟨1, _⟩ => rfl | ⟨2, _⟩ => rfl))

/-! ## One graph layer of the host program, as a function of its operands -/

/-- The normaliser column: row sums of the adjacency, plus the constant one. -/
def hostDen (A : FVec Ideal S16x512x512 .f32) : FVec Ideal S16x512x1 .f32 :=
  addf (broadcastInDim S16x512x1 ![0, 1] bcast_S16x512_S16x512x1_0_1
      (Host.reduceAdd (F := Ideal) A (constant (F := Ideal) S_ .f32 0x00000000#32) reducesTo_S16x512x512_S16x512_d2 h_S_))
    (broadcastInDim S16x512x1 ![] bcast_S_S16x512x1 (constant (F := Ideal) S_ .f32 0x3F800000#32))

/-- The normaliser at a node is the row sum plus one. -/
theorem hostDen_apply (A : FVec Ideal S16x512x512 .f32) (b : Fin 16) (s : Fin 512) :
    hostDen A (ix3 b s (0 : Fin 1)) = Cert.GraphSpec.norm (fun s t => A (ix3 b s t)) s := by
  unfold hostDen Cert.GraphSpec.norm
  rw [addf_apply, rowSum_apply, splat_apply]

/-- One layer: aggregate over neighbours, add the node's own features, apply the weights, add twice the bias,
    divide by the normaliser, clamp below at zero. -/
def hostLayer (A P : FVec Ideal S16x512x512 .f32) (W : FVec Ideal S512x512 .f32) (β : FVec Ideal S512 .f32)
    (den : FVec Ideal S16x512x1 .f32) : FVec Ideal S16x512x512 .f32 :=
  maximumf
    (Host.divf (F := Ideal)
      (addf
        (Host.dotGeneral (F := Ideal) dot_S16x512x512_S512x512_S16x512x512_2_1_01_0_n_n none
          (addf (Host.dotGeneral (F := Ideal) dot_S16x512x512_S16x512x512_S16x512x512_2_1_1_2_0_0 none A P) P) W)
        (broadcastInDim S16x512x512 ![0, 1, 2] bcast_S1x1x512_S16x512x512_0_1_2
          (broadcastInDim S1x1x512 ![2] bcast_S512_S1x1x512_2
            (mulf (broadcastInDim S512 ![] bcast_S_S512 (constant (F := Ideal) S_ .f32 0x40000000#32)) β))))
      (broadcastInDim S16x512x512 ![0, 1, 2] bcast_S16x512x1_S16x512x512_0_1_2 den))
    (broadcastInDim S16x512x512 ![] bcast_S_S16x512x512 (constant (F := Ideal) S_ .f32 0x00000000#32))

/-- A host layer whose normaliser is the adjacency's is the specification's layer, batch element by batch element. -/
theorem hostLayer_apply (A P : FVec Ideal S16x512x512 .f32) (W : FVec Ideal S512x512 .f32) (β : FVec Ideal S512 .f32)
    (b : Fin 16) (s e : Fin 512) :
    hostLayer A P W β (hostDen A) (ix3 b s e)
      = Cert.GraphSpec.layer (fun s t => A (ix3 b s t)) (fun e d => W (ix2 e d)) (fun e => β (ix1 e))
          (fun s d => P (ix3 b s d)) s e := by
  unfold hostLayer Cert.GraphSpec.layer
  rw [maximumf_apply, splat_apply, Ideal.ofBits_zero_f32]
  simp only [Host.divf, Ideal.hostDivf_def]
  rw [addf_apply, dotW_apply, bcastFeature_apply, mulf_apply, splat_apply, bcastNode_apply, hostDen_apply]
  simp only [addf_apply, dotA_apply]

/-! ## The concatenations along the feature axis read at an index -/

/-- Two hidden states side by side. -/
def hostCat2 (u v : FVec Ideal S16x512x512 .f32) : FVec Ideal S16x512x1024 .f32 :=
  concatenate S16x512x1024 2 [⟨S16x512x512, u⟩, ⟨S16x512x512, v⟩] concatenates_S16x512x512_S16x512x512_S16x512x1024_d2

/-- Its first 512 columns are the first state. -/
theorem hostCat2_left (u v : FVec Ideal S16x512x512 .f32) (b : Fin 16) (s : Fin 512) (f : Fin 1024) (d : Fin 512)
    (hf : d.val = f.val) : hostCat2 u v (ix3 b s f) = u (ix3 b s d) :=
  concatenate_pair_apply_left 2 u v concatenates_S16x512x512_S16x512x512_S16x512x1024_d2 (ix3 b s f) rfl (ix3 b s d)
    (fun a => match a with
      | ⟨0, _⟩ => rfl
      | ⟨1, _⟩ => rfl
      | ⟨2, _⟩ => hf)

/-- Its last 512 columns are the second state. -/
theorem hostCat2_right (u v : FVec Ideal S16x512x512 .f32) (b : Fin 16) (s : Fin 512) (f : Fin 1024) (d : Fin 512)
    (hf : d.val + 512 = f.val) : hostCat2 u v (ix3 b s f) = v (ix3 b s d) :=
  concatenate_pair_apply_right 2 u v concatenates_S16x512x512_S16x512x512_S16x512x1024_d2 (ix3 b s f) rfl rfl (ix3 b s d)
    (fun a => match a with
      | ⟨0, _⟩ => fun _ => rfl
      | ⟨1, _⟩ => fun _ => rfl
      | ⟨2, _⟩ => fun h => absurd rfl h)
    hf

/-- Three double-width blocks side by side. -/
def hostCat3 (u v w : FVec Ideal S16x512x1024 .f32) : FVec Ideal S16x512x3072 .f32 :=
  concatenate S16x512x3072 2 [⟨S16x512x1024, u⟩, ⟨S16x512x1024, v⟩, ⟨S16x512x1024, w⟩]
    concatenates_S16x512x1024_S16x512x1024_S16x512x1024_S16x512x3072_d2

/-- Columns 0 … 1023 are the first block. -/
theorem hostCat3_fst (u v w : FVec Ideal S16x512x1024 .f32) (b : Fin 16) (s : Fin 512) (f : Fin 3072) (g : Fin 1024)
    (hf : 0 + g.val = f.val) : hostCat3 u v w (ix3 b s f) = u (ix3 b s g) :=
  concatenate_apply_piece 2 [⟨S16x512x1024, u⟩, ⟨S16x512x1024, v⟩, ⟨S16x512x1024, w⟩]
    concatenates_S16x512x1024_S16x512x1024_S16x512x1024_S16x512x3072_d2 (ix3 b s f)
    0 (by show 0 < 3; omega) S16x512x1024 u rfl rfl 0 rfl (ix3 b s g)
    (fun a => match a with
      | ⟨0, _⟩ => fun _ => rfl
      | ⟨1, _⟩ => fun _ => rfl
      | ⟨2, _⟩ => fun h => absurd rfl h)
    hf

/-- Columns 1024 … 2047 are the second block. -/
theorem hostCat3_snd (u v w : FVec Ideal S16x512x1024 .f32) (b : Fin 16) (s : Fin 512) (f : Fin 3072) (g : Fin 1024)
    (hf : 1024 + g.val = f.val) : hostCat3 u v w (ix3 b s f) = v (ix3 b s g) :=
  concatenate_apply_piece 2 [⟨S16x512x1024, u⟩, ⟨S16x512x1024, v⟩, ⟨S16x512x1024, w⟩]
    concatenates_S16x512x1024_S16x512x1024_S16x512x1024_S16x512x3072_d2 (ix3 b s f)
    1 (by show 1 < 3; omega) S16x512x1024 v rfl rfl 1024 rfl (ix3 b s g)
    (fun a => match a with
      | ⟨0, _⟩ => fun _ => rfl
      | ⟨1, _⟩ => fun _ => rfl
      | ⟨2, _⟩ => fun h => absurd rfl h)
    hf

/-- Columns 2048 … 3071 are the third block. -/
theorem hostCat3_trd (u v w : FVec Ideal S16x512x1024 .f32) (b : Fin 16) (s : Fin 512) (f : Fin 3072) (g : Fin 1024)
    (hf : 2048 + g.val = f.val) : hostCat3 u v w (ix3 b s f) = w (ix3 b s g) :=
  concatenate_apply_piece 2 [⟨S16x512x1024, u⟩, ⟨S16x512x1024, v⟩, ⟨S16x512x1024, w⟩]
    concatenates_S16x512x1024_S16x512x1024_S16x512x1024_S16x512x3072_d2 (ix3 b s f)
    2 (by show 2 < 3; omega) S16x512x1024 w rfl rfl 2048 rfl (ix3 b s g)
    (fun a => match a with
      | ⟨0, _⟩ => fun _ => rfl
      | ⟨1, _⟩ => fun _ => rfl
      | ⟨2, _⟩ => fun h => absurd rfl h)
    hf

/-- The six hidden states side by side, joined as the program joins them: in pairs, then the three pairs. -/
def hostCat6 (h0 h1 h2 h3 h4 h5 : FVec Ideal S16x512x512 .f32) : FVec Ideal S16x512x3072 .f32 :=
  hostCat3 (hostCat2 h0 h1) (hostCat2 h2 h3) (hostCat2 h4 h5)

/-! Column `512 k + d` of the joined array is column `d` of hidden state `k`. -/

theorem hostCat6_col0 (h0 h1 h2 h3 h4 h5 : FVec Ideal S16x512x512 .f32) (b : Fin 16) (s d : Fin 512) :
    hostCat6 h0 h1 h2 h3 h4 h5 (ix3 b s (Cert.GraphSpec.col 0 d)) = h0 (ix3 b s d) := by
  unfold hostCat6
  rw [hostCat3_fst _ _ _ b s (Cert.GraphSpec.col 0 d) ⟨d.val, by have := d.isLt; omega⟩
    (by show 0 + (d.val) = 512 * 0 + d.val; omega)]
  exact hostCat2_left _ _ b s _ d rfl

theorem hostCat6_col1 (h0 h1 h2 h3 h4 h5 : FVec Ideal S16x512x512 .f32) (b : Fin 16) (s d : Fin 512) :
    hostCat6 h0 h1 h2 h3 h4 h5 (ix3 b s (Cert.GraphSpec.col 1 d)) = h1 (ix3 b s d) := by
  unfold hostCat6
  rw [hostCat3_fst _ _ _ b s (Cert.GraphSpec.col 1 d) ⟨d.val + 512, by have := d.isLt; omega⟩
    (by show 0 + (d.val + 512) = 512 * 1 + d.val; omega)]
  exact hostCat2_right _ _ b s _ d rfl

theorem hostCat6_col2 (h0 h1 h2 h3 h4 h5 : FVec Ideal S16x512x512 .f32) (b : Fin 16) (s d : Fin 512) :
    hostCat6 h0 h1 h2 h3 h4 h5 (ix3 b s (Cert.GraphSpec.col 2 d)) = h2 (ix3 b s d) := by
  unfold hostCat6
  rw [hostCat3_snd _ _ _ b s (Cert.GraphSpec.col 2 d) ⟨d.val, by have := d.isLt; omega⟩
    (by show 1024 + (d.val) = 512 * 2 + d.val; omega)]
  exact hostCat2_left _ _ b s _ d rfl

theorem hostCat6_col3 (h0 h1 h2 h3 h4 h5 : FVec Ideal S16x512x512 .f32) (b : Fin 16) (s d : Fin 512) :
    hostCat6 h0 h1 h2 h3 h4 h5 (ix3 b s (Cert.GraphSpec.col 3 d)) = h3 (ix3 b s d) := by
  unfold hostCat6
  rw [hostCat3_snd _ _ _ b s (Cert.GraphSpec.col 3 d) ⟨d.val + 512, by have := d.isLt; omega⟩
    (by show 1024 + (d.val + 512) = 512 * 3 + d.val; omega)]
  exact hostCat2_right _ _ b s _ d rfl

theorem hostCat6_col4 (h0 h1 h2 h3 h4 h5 : FVec Ideal S16x512x512 .f32) (b : Fin 16) (s d : Fin 512) :
    hostCat6 h0 h1 h2 h3 h4 h5 (ix3 b s (Cert.GraphSpec.col 4 d)) = h4 (ix3 b s d) := by
  unfold hostCat6
  rw [hostCat3_trd _ _ _ b s (Cert.GraphSpec.col 4 d) ⟨d.val, by have := d.isLt; omega⟩
    (by show 2048 + (d.val) = 512 * 4 + d.val; omega)]
  exact hostCat2_left _ _ b s _ d rfl

theorem hostCat6_col5 (h0 h1 h2 h3 h4 h5 : FVec Ideal S16x512x512 .f32) (b : Fin 16) (s d : Fin 512) :
    hostCat6 h0 h1 h2 h3 h4 h5 (ix3 b s (Cert.GraphSpec.col 5 d)) = h5 (ix3 b s d) := by
  unfold hostCat6
  rw [hostCat3_trd _ _ _ b s (Cert.GraphSpec.col 5 d) ⟨d.val + 512, by have := d.isLt; omega⟩
    (by show 2048 + (d.val + 512) = 512 * 5 + d.val; omega)]
  exact hostCat2_right _ _ b s _ d rfl

/-! ## The output projection and the whole network -/

/-- The output stage: project the joined features, add the output bias, add the input features. -/
def hostOut (X : FVec Ideal S16x512x512 .f32) (Hc : FVec Ideal S16x512x3072 .f32) (Wo : FVec Ideal S512x3072 .f32)
    (βo : FVec Ideal S512 .f32) : FVec Ideal S16x512x512 .f32 :=
  addf X (addf (Host.dotGeneral (F := Ideal) dot_S16x512x3072_S512x3072_S16x512x512_2_1_01_0_n_n none Hc Wo)
    (broadcastInDim S16x512x512 ![0, 1, 2] bcast_S1x1x512_S16x512x512_0_1_2
      (broadcastInDim S1x1x512 ![2] bcast_S512_S1x1x512_2 βo)))

theorem hostOut_apply (X : FVec Ideal S16x512x512 .f32) (Hc : FVec Ideal S16x512x3072 .f32) (Wo : FVec Ideal S512x3072 .f32)
    (βo : FVec Ideal S512 .f32) (b : Fin 16) (s e : Fin 512) :
    hostOut X Hc Wo βo (ix3 b s e)
      = X (ix3 b s e) + ((∑ f : Fin 3072, Hc (ix3 b s f) * Wo (ix2 e f)) + βo (ix1 e)) := by
  unfold hostOut
  rw [addf_apply, addf_apply, dotO_apply, bcastFeature_apply]

/-- The whole network: three heads of two layers each from the same input features, then the output stage. -/
def hostNet (A0 A1 A2 X : FVec Ideal S16x512x512 .f32) (W0 W1 W2 W3 W4 W5 : FVec Ideal S512x512 .f32)
    (β0 β1 β2 β3 β4 β5 : FVec Ideal S512 .f32) (Wo : FVec Ideal S512x3072 .f32) (βo : FVec Ideal S512 .f32) :
    FVec Ideal S16x512x512 .f32 :=
  hostOut X (hostCat6
    (hostLayer A0 X W0 β0 (hostDen A0))
    (hostLayer A0 (hostLayer A0 X W0 β0 (hostDen A0)) W1 β1 (hostDen A0))
    (hostLayer A1 X W2 β2 (hostDen A1))
    (hostLayer A1 (hostLayer A1 X W2 β2 (hostDen A1)) W3 β3 (hostDen A1))
    (hostLayer A2 X W4 β4 (hostDen A2))
    (hostLayer A2 (hostLayer A2 X W4 β4 (hostDen A2)) W5 β5 (hostDen A2))) Wo βo

/-- The network at batch element `b`, node `s`, feature `e` is the specification's `out` on the batch element's
    matrices, whatever names (`Am`, `Wm`, `βm`) the adjacency, weight and bias matrices are given. -/
theorem hostNet_apply (A0 A1 A2 X : FVec Ideal S16x512x512 .f32) (W0 W1 W2 W3 W4 W5 : FVec Ideal S512x512 .f32)
    (β0 β1 β2 β3 β4 β5 : FVec Ideal S512 .f32) (Wo : FVec Ideal S512x3072 .f32) (βo : FVec Ideal S512 .f32)
    (b : Fin 16) (s e : Fin 512)
    (Am : Fin 3 → Cert.GraphSpec.Mat) (Wm : Fin 6 → Cert.GraphSpec.Mat) (βm : Fin 6 → Fin 512 → EReal)
    (hA0 : (fun s t => A0 (ix3 b s t)) = Am 0) (hA1 : (fun s t => A1 (ix3 b s t)) = Am 1)
    (hA2 : (fun s t => A2 (ix3 b s t)) = Am 2)
    (hW0 : (fun e d => W0 (ix2 e d)) = Wm 0) (hW1 : (fun e d => W1 (ix2 e d)) = Wm 1)
    (hW2 : (fun e d => W2 (ix2 e d)) = Wm 2) (hW3 : (fun e d => W3 (ix2 e d)) = Wm 3)
    (hW4 : (fun e d => W4 (ix2 e d)) = Wm 4) (hW5 : (fun e d => W5 (ix2 e d)) = Wm 5)
    (hβ0 : (fun e => β0 (ix1 e)) = βm 0) (hβ1 : (fun e => β1 (ix1 e)) = βm 1)
    (hβ2 : (fun e => β2 (ix1 e)) = βm 2) (hβ3 : (fun e => β3 (ix1 e)) = βm 3)
    (hβ4 : (fun e => β4 (ix1 e)) = βm 4) (hβ5 : (fun e => β5 (ix1 e)) = βm 5) :
    hostNet A0 A1 A2 X W0 W1 W2 W3 W4 W5 β0 β1 β2 β3 β4 β5 Wo βo (ix3 b s e)
      = Cert.GraphSpec.out Am (fun s d => X (ix3 b s d)) Wm βm (fun e f => Wo (ix2 e f)) (fun e => βo (ix1 e)) s e := by
  have L0 : ∀ s d, hostLayer A0 X W0 β0 (hostDen A0) (ix3 b s d)
      = Cert.GraphSpec.layer (Am 0) (Wm 0) (βm 0) (fun s d => X (ix3 b s d)) s d := fun s d => by
    rw [hostLayer_apply, hA0, hW0, hβ0]
  have L1 : ∀ s d, hostLayer A0 (hostLayer A0 X W0 β0 (hostDen A0)) W1 β1 (hostDen A0) (ix3 b s d)
      = Cert.GraphSpec.layer (Am 0) (Wm 1) (βm 1)
          (Cert.GraphSpec.layer (Am 0) (Wm 0) (βm 0) (fun s d => X (ix3 b s d))) s d := fun s d => by
    rw [hostLayer_apply, hA0, hW1, hβ1, funext fun s => funext fun d => L0 s d]
  have L2 : ∀ s d, hostLayer A1 X W2 β2 (hostDen A1) (ix3 b s d)
      = Cert.GraphSpec.layer (Am 1) (Wm 2) (βm 2) (fun s d => X (ix3 b s d)) s d := fun s d => by
    rw [hostLayer_apply, hA1, hW2, hβ2]
  have L3 : ∀ s d, hostLayer A1 (hostLayer A1 X W2 β2 (hostDen A1)) W3 β3 (hostDen A1) (ix3 b s d)
      = Cert.GraphSpec.layer (Am 1) (Wm 3) (βm 3)
          (Cert.GraphSpec.layer (Am 1) (Wm 2) (βm 2) (fun s d => X (ix3 b s d))) s d := fun s d => by
    rw [hostLayer_apply, hA1, hW3, hβ3, funext fun s => funext fun d => L2 s d]
  have L4 : ∀ s d, hostLayer A2 X W4 β4 (hostDen A2) (ix3 b s d)
      = Cert.GraphSpec.layer (Am 2) (Wm 4) (βm 4) (fun s d => X (ix3 b s d)) s d := fun s d => by
    rw [hostLayer_apply, hA2, hW4, hβ4]
  have L5 : ∀ s d, hostLayer A2 (hostLayer A2 X W4 β4 (hostDen A2)) W5 β5 (hostDen A2) (ix3 b s d)
      = Cert.GraphSpec.layer (Am 2) (Wm 5) (βm 5)
          (Cert.GraphSpec.layer (Am 2) (Wm 4) (βm 4) (fun s d => X (ix3 b s d))) s d := fun s d => by
    rw [hostLayer_apply, hA2, hW5, hβ5, funext fun s => funext fun d => L4 s d]
  unfold hostNet Cert.GraphSpec.out Cert.GraphSpec.proj
  rw [hostOut_apply, Cert.GraphSpec.sum_columns]
  simp only [hostCat6_col0, hostCat6_col1, hostCat6_col2, hostCat6_col3, hostCat6_col4, hostCat6_col5,
    L0, L1, L2, L3, L4, L5]

end Cert.RefLayers

end
-- ==== Proof.RefValue.lean ====
/-
  The reference program computes the specification `G` (GraphSpec.lean), index by index.

  Three steps. (1) Each slice of an argument — head `h`'s adjacency, layer `k`'s weights and bias — is a unit-width
  slice followed by dropping the unit axis, so it reads the argument at the slice's number and the same remaining
  coordinates (`adj0 … adj2`, `wgt0 … wgt5`, `bias0 … bias5`). (2) The program's result is, by unfolding its
  operations in order, the network function `hostNet` of RefLayers.lean applied to these slices (`main_eq_hostNet`).
  (3) `hostNet` at batch element `b`, node `s`, feature `e` is the specification's `out` on the matrices of batch
  element `b` (`hostNet_apply`), which is `G` at that index.
-/
import proofs.«118928_j90305982366173_2_alg».proof.Proof.Gen.ReferenceIdeal.Read
import proofs.«118928_j90305982366173_2_alg».proof.Proof.GraphSpec
import proofs.«118928_j90305982366173_2_alg».proof.Proof.RefLayers
import Idealize.ShloMosaic.Lib.ValueIdx

noncomputable section

namespace Cert.RefValue

open Cert.ReferenceIdeal Cert.ReferenceIdeal.Gen Cert.ReferenceIdeal.Read Cert.RefLayers Idealize.ShloMosaic Idealize.ShloMosaic.TcCoe Idealize.SL.Sem Idealize.ShloMosaic.StableHlo Idealize.ShloMosaic.ValueIdx

/-! ## The argument slices read at an index

Head `h`'s adjacency is slice `h` of the first argument, layer `k`'s weights and bias are slice `k` of the weight and
bias arguments; each is a unit-width slice followed by dropping the unit axis, so it reads the argument at the slice's
number and the same remaining coordinates. -/

theorem adj0 (x0 : FVec Ideal S3x16x512x512 .f32) (b : Fin 16) (s t : Fin 512) :
    val_main_v1 (F := Ideal) x0 (ix3 b s t) = x0 (ix4 (0 : Fin 3) b s t) := by
  rw [val_main_v1_apply, val_main_v0_apply]
  refine congrArg x0 (funext fun a => Fin.ext ?_)
  have hb := b.isLt; have hs := s.isLt; have ht := t.isLt
  match a with
  | ⟨0, _⟩ => rfl
  | ⟨1, _⟩ => show ((b.val * 512 + s.val) * 512 + t.val) / 262144 % 16 = b.val; omega
  | ⟨2, _⟩ => show ((b.val * 512 + s.val) * 512 + t.val) / 512 % 512 = s.val; omega
  | ⟨3, _⟩ => show ((b.val * 512 + s.val) * 512 + t.val) % 512 = t.val; omega

theorem adj1 (x0 : FVec Ideal S3x16x512x512 .f32) (b : Fin 16) (s t : Fin 512) :
    val_main_v38 (F := Ideal) x0 (ix3 b s t) = x0 (ix4 (1 : Fin 3) b s t) := by
  rw [val_main_v38_apply, val_main_v37_apply]
  refine congrArg x0 (funext fun a => Fin.ext ?_)
  have hb := b.isLt; have hs := s.isLt; have ht := t.isLt
  match a with
  | ⟨0, _⟩ => rfl
  | ⟨1, _⟩ => show ((b.val * 512 + s.val) * 512 + t.val) / 262144 % 16 = b.val; omega
  | ⟨2, _⟩ => show ((b.val * 512 + s.val) * 512 + t.val) / 512 % 512 = s.val; omega
  | ⟨3, _⟩ => show ((b.val * 512 + s.val) * 512 + t.val) % 512 = t.val; omega

theorem adj2 (x0 : FVec Ideal S3x16x512x512 .f32) (b : Fin 16) (s t : Fin 512) :
    val_main_v75 (F := Ideal) x0 (ix3 b s t) = x0 (ix4 (2 : Fin 3) b s t) := by
  rw [val_main_v75_apply, val_main_v74_apply]
  refine congrArg x0 (funext fun a => Fin.ext ?_)
  have hb := b.isLt; have hs := s.isLt; have ht := t.isLt
  match a with
  | ⟨0, _⟩ => rfl
  | ⟨1, _⟩ => show ((b.val * 512 + s.val) * 512 + t.val) / 262144 % 16 = b.val; omega
  | ⟨2, _⟩ => show ((b.val * 512 + s.val) * 512 + t.val) / 512 % 512 = s.val; omega
  | ⟨3, _⟩ => show ((b.val * 512 + s.val) * 512 + t.val) % 512 = t.val; omega

theorem wgt0 (x4 : FVec Ideal S6x512x512 .f32) (e d : Fin 512) :
    val_main_v9 (F := Ideal) x4 (ix2 e d) = x4 (ix3 (0 : Fin 6) e d) := by
  rw [val_main_v9_apply, val_main_v8_apply]
  refine congrArg x4 (funext fun a => Fin.ext ?_)
  have he := e.isLt; have hd := d.isLt
  match a with
  | ⟨0, _⟩ => rfl
  | ⟨1, _⟩ => show (e.val * 512 + d.val) / 512 % 512 = e.val; omega
  | ⟨2, _⟩ => show (e.val * 512 + d.val) % 512 = d.val; omega

theorem wgt1 (x4 : FVec Ideal S6x512x512 .f32) (e d : Fin 512) :
    val_main_v24 (F := Ideal) x4 (ix2 e d) = x4 (ix3 (1 : Fin 6) e d) := by
  rw [val_main_v24_apply, val_main_v23_apply]
  refine congrArg x4 (funext fun a => Fin.ext ?_)
  have he := e.isLt; have hd := d.isLt
  match a with
  | ⟨0, _⟩ => rfl
  | ⟨1, _⟩ => show (e.val * 512 + d.val) / 512 % 512 = e.val; omega
  | ⟨2, _⟩ => show (e.val * 512 + d.val) % 512 = d.val; omega

theorem wgt2 (x4 : FVec Ideal S6x512x512 .f32) (e d : Fin 512) :
    val_main_v46 (F := Ideal) x4 (ix2 e d) = x4 (ix3 (2 : Fin 6) e d) := by
  rw [val_main_v46_apply, val_main_v45_apply]
  refine congrArg x4 (funext fun a => Fin.ext ?_)
  have he := e.isLt; have hd := d.isLt
  match a with
  | ⟨0, _⟩ => rfl
  | ⟨1, _⟩ => show (e.val * 512 + d.val) / 512 % 512 = e.val; omega
  | ⟨2, _⟩ => show (e.val * 512 + d.val) % 512 = d.val; omega

theorem wgt3 (x4 : FVec Ideal S6x512x512 .f32) (e d : Fin 512) :
    val_main_v61 (F := Ideal) x4 (ix2 e d) = x4 (ix3 (3 : Fin 6) e d) := by
  rw [val_main_v61_apply, val_main_v60_apply]
  refine congrArg x4 (funext fun a => Fin.ext ?_)
  have he := e.isLt; have hd := d.isLt
  match a with
  | ⟨0, _⟩ => rfl
  | ⟨1, _⟩ => show (e.val * 512 + d.val) / 512 % 512 = e.val; omega
  | ⟨2, _⟩ => show (e.val * 512 + d.val) % 512 = d.val; omega

theorem wgt4 (x4 : FVec Ideal S6x512x512 .f32) (e d : Fin 512) :
    val_main_v83 (F := Ideal) x4 (ix2 e d) = x4 (ix3 (4 : Fin 6) e d) := by
  rw [val_main_v83_apply, val_main_v82_apply]
  refine congrArg x4 (funext fun a => Fin.ext ?_)
  have he := e.isLt; have hd := d.isLt
  match a with
  | ⟨0, _⟩ => rfl
  | ⟨1, _⟩ => show (e.val * 512 + d.val) / 512 % 512 = e.val; omega
  | ⟨2, _⟩ => show (e.val * 512 + d.val) % 512 = d.val; omega

theorem wgt5 (x4 : FVec Ideal S6x512x512 .f32) (e d : Fin 512) :
    val_main_v98 (F := Ideal) x4 (ix2 e d) = x4 (ix3 (5 : Fin 6) e d) := by
  rw [val_main_v98_apply, val_main_v97_apply]
  refine congrArg x4 (funext fun a => Fin.ext ?_)
  have he := e.isLt; have hd := d.isLt
  match a with
  | ⟨0, _⟩ => rfl
  | ⟨1, _⟩ => show (e.val * 512 + d.val) / 512 % 512 = e.val; omega
  | ⟨2, _⟩ => show (e.val * 512 + d.val) % 512 = d.val; omega

theorem bias0 (x5 : FVec Ideal S6x512 .f32) (e : Fin 512) :
    val_main_v12 (F := Ideal) x5 (ix1 e) = x5 (ix2 (0 : Fin 6) e) := by
  rw [val_main_v12_apply, val_main_v11_apply]
  refine congrArg x5 (funext fun a => Fin.ext ?_)
  have he := e.isLt
  match a with
  | ⟨0, _⟩ => rfl
  | ⟨1, _⟩ => show e.val % 512 = e.val; omega

theorem bias1 (x5 : FVec Ideal S6x512 .f32) (e : Fin 512) :
    val_main_v27 (F := Ideal) x5 (ix1 e) = x5 (ix2 (1 : Fin 6) e) := by
  rw [val_main_v27_apply, val_main_v26_apply]
  refine congrArg x5 (funext fun a => Fin.ext ?_)
  have he := e.isLt
  match a with
  | ⟨0, _⟩ => rfl
  | ⟨1, _⟩ => show e.val % 512 = e.val; omega

theorem bias2 (x5 : FVec Ideal S6x512 .f32) (e : Fin 512) :
    val_main_v49 (F := Ideal) x5 (ix1 e) = x5 (ix2 (2 : Fin 6) e) := by
  rw [val_main_v49_apply, val_main_v48_apply]
  refine congrArg x5 (funext fun a => Fin.ext ?_)
  have he := e.isLt
  match a with
  | ⟨0, _⟩ => rfl
  | ⟨1, _⟩ => show e.val % 512 = e.val; omega

theorem bias3 (x5 : FVec Ideal S6x512 .f32) (e : Fin 512) :
    val_main_v64 (F := Ideal) x5 (ix1 e) = x5 (ix2 (3 : Fin 6) e) := by
  rw [val_main_v64_apply, val_main_v63_apply]
  refine congrArg x5 (funext fun a => Fin.ext ?_)
  have he := e.isLt
  match a with
  | ⟨0, _⟩ => rfl
  | ⟨1, _⟩ => show e.val % 512 = e.val; omega

theorem bias4 (x5 : FVec Ideal S6x512 .f32) (e : Fin 512) :
    val_main_v86 (F := Ideal) x5 (ix1 e) = x5 (ix2 (4 : Fin 6) e) := by
  rw [val_main_v86_apply, val_main_v85_apply]
  refine congrArg x5 (funext fun a => Fin.ext ?_)
  have he := e.isLt
  match a with
  | ⟨0, _⟩ => rfl
  | ⟨1, _⟩ => show e.val % 512 = e.val; omega

theorem bias5 (x5 : FVec Ideal S6x512 .f32) (e : Fin 512) :
    val_main_v101 (F := Ideal) x5 (ix1 e) = x5 (ix2 (5 : Fin 6) e) := by
  rw [val_main_v101_apply, val_main_v100_apply]
  refine congrArg x5 (funext fun a => Fin.ext ?_)
  have he := e.isLt
  match a with
  | ⟨0, _⟩ => rfl
  | ⟨1, _⟩ => show e.val % 512 = e.val; omega

/-! ## The program is the network on the slices, and the network is the specification -/

/-- The program's result, operation by operation, is `hostNet` applied to the slices of its arguments. -/
theorem main_eq_hostNet (x0 : FVec Ideal S3x16x512x512 .f32) (x1 : FVec Ideal S16x512x512 .f32)
    (x4 : FVec Ideal S6x512x512 .f32) (x5 : FVec Ideal S6x512 .f32) (x6 : FVec Ideal S512x3072 .f32)
    (x7 : FVec Ideal S512 .f32) :
    val_main_v116 (F := Ideal) x0 x1 x4 x5 x6 x7
      = hostNet (val_main_v1 (F := Ideal) x0) (val_main_v38 (F := Ideal) x0) (val_main_v75 (F := Ideal) x0) x1
          (val_main_v9 (F := Ideal) x4) (val_main_v24 (F := Ideal) x4) (val_main_v46 (F := Ideal) x4)
          (val_main_v61 (F := Ideal) x4) (val_main_v83 (F := Ideal) x4) (val_main_v98 (F := Ideal) x4)
          (val_main_v12 (F := Ideal) x5) (val_main_v27 (F := Ideal) x5) (val_main_v49 (F := Ideal) x5)
          (val_main_v64 (F := Ideal) x5) (val_main_v86 (F := Ideal) x5) (val_main_v101 (F := Ideal) x5) x6 x7 := rfl

/-- The reference program computes the specification `G`. -/
theorem result_eq (x0 : FVec Ideal Cert.ReferenceIdeal.S3x16x512x512 .f32) (x1 : FVec Ideal Cert.ReferenceIdeal.S16x512x512 .f32)
    (x4 : FVec Ideal Cert.ReferenceIdeal.S6x512x512 .f32) (x5 : FVec Ideal Cert.ReferenceIdeal.S6x512 .f32)
    (x6 : FVec Ideal Cert.ReferenceIdeal.S512x3072 .f32) (x7 : FVec Ideal Cert.ReferenceIdeal.S512 .f32) :
    Cert.ReferenceIdeal.Read.val_main_v116 (F := Ideal) x0 x1 x4 x5 x6 x7 = Cert.GraphSpec.G x0 x1 x4 x5 x6 x7 := by
  funext i
  obtain ⟨b, s, e, rfl⟩ : ∃ (b : Fin 16) (s e : Fin 512), i = ix3 b s e := ⟨i 0, i 1, i 2, eq_ix3 i⟩
  rw [main_eq_hostNet]
  unfold Cert.GraphSpec.G
  exact hostNet_apply _ _ _ _ _ _ _ _ _ _ _ _ _ _ _ _ _ _ b s e
    (fun h s t => x0 (ix4 h b s t)) (fun k e d => x4 (ix3 k e d)) (fun k e => x5 (ix2 k e))
    (funext fun s => funext fun t => adj0 x0 b s t) (funext fun s => funext fun t => adj1 x0 b s t)
    (funext fun s => funext fun t => adj2 x0 b s t)
    (funext fun e => funext fun d => wgt0 x4 e d) (funext fun e => funext fun d => wgt1 x4 e d)
    (funext fun e => funext fun d => wgt2 x4 e d) (funext fun e => funext fun d => wgt3 x4 e d)
    (funext fun e => funext fun d => wgt4 x4 e d) (funext fun e => funext fun d => wgt5 x4 e d)
    (funext fun e => bias0 x5 e) (funext fun e => bias1 x5 e) (funext fun e => bias2 x5 e)
    (funext fun e => bias3 x5 e) (funext fun e => bias4 x5 e) (funext fun e => bias5 x5 e)

end Cert.RefValue

end
-- ==== Proof.lean ====
/-
  A three-head, two-layer graph network over sixteen batch elements, computed by one kernel launch (one batch element
  per grid point) and by a plain reference program; the claim is that, as extended reals, both end with the same result
  array, element by element.

  For one batch element, a layer with adjacency matrix A, weights W and bias β sends node features P to
      max ( ( ∑ d, ((∑ t, A s t · P t d) + P s d) · W e d + 2 β e ) / (∑ t, A s t + 1), 0 ),
  each head runs two layers from the input features, the six hidden states side by side are multiplied by the
  transposed output weights, and the output bias and the input features are added (`GraphSpec`).

  The reference divides each row by its normaliser; the kernel multiplies by the normaliser's reciprocal. Off a zero
  normaliser these agree on every extended real; at a zero normaliser they differ only for a zero numerator (`0 · ⊤ = 0`
  against the bottom element), and the maximum with zero that follows sends both to zero (`ReluQuotient`). The kernel
  rounds its matrix operands to a shorter format, which changes nothing over the extended reals; it adds the six blocks
  of the output projection one after the other into an accumulator, where the reference takes one sum over all 3072
  columns: addition of extended reals is commutative and associative, so the two sums are equal (`GraphSpec.sum_columns`).
  No finiteness of the inputs is used.

  The kernel's side: the block each grid point leaves is one pure function of the blocks it loads (`KernelBody`), read
  entry by entry (`KernelEntries`, `KernelBlock`), and the sixteen blocks make up the result array (`KernelValue`).
  The reference's side: its operations read at an index give the same function (`RefLayers`, `RefValue`).
  The idealized kernel is the kernel's own text read over the extended reals: nothing was rewritten, so `preserves` is
  trivially true.
-/
import proofs.«118928_j90305982366173_2_alg».proof.Defs
import proofs.«118928_j90305982366173_2_alg».proof.Proof.Gen.Kernel
import proofs.«118928_j90305982366173_2_alg».proof.Proof.Gen.Kernel.Frame
import proofs.«118928_j90305982366173_2_alg».proof.Proof.Gen.KernelIdeal
import proofs.«118928_j90305982366173_2_alg».proof.Proof.Gen.KernelIdeal.Frame
import proofs.«118928_j90305982366173_2_alg».proof.Proof.Gen.KernelIdeal.Value
import proofs.«118928_j90305982366173_2_alg».proof.Proof.Gen.ReferenceIdeal
import proofs.«118928_j90305982366173_2_alg».proof.Proof.Gen.ReferenceIdeal.Run
import proofs.«118928_j90305982366173_2_alg».proof.Proof.Gen.ReferenceIdeal.Read
import proofs.«118928_j90305982366173_2_alg».proof.Proof.Gen.Pre_finite_inputs
import proofs.«118928_j90305982366173_2_alg».proof.Proof.KernelValue
import proofs.«118928_j90305982366173_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the network of the argument arrays (`GraphSpec.G`): the kernel by `KernelValue.run`, the
    reference by its run and `RefValue.result_eq`, from memories that agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, -, e4, e5, e6, e7⟩ := hagree c
  rw [Cert.ReferenceIdeal.Read.val_main_v116_eq, Cert.RefValue.result_eq, e0, e1, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
